-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x1433 : Shape := ⟨2, ![50000, 1433]⟩
abbrev S1600000 : Shape := ⟨1, ![1600000]⟩
abbrev S1433x128 : Shape := ⟨2, ![1433, 128]⟩
abbrev S128 : Shape := ⟨1, ![128]⟩
abbrev S128x7 : Shape := ⟨2, ![128, 7]⟩
abbrev S7 : Shape := ⟨1, ![7]⟩
abbrev S_ : Shape := ⟨0, ![]⟩

class Facts : Prop where
  bcast_S_S50000x1433 : S_.BroadcastsInDim S50000x1433 (![] : Fin 0 → Fin S50000x1433.rank)
  reducesTo_S50000x1433_S_d0_1 : S50000x1433.ReducesTo [0, 1] S_
  h_S_ : 0 < S_.numel
  bcast_S_S1433x128 : S_.BroadcastsInDim S1433x128 (![] : Fin 0 → Fin S1433x128.rank)
  reducesTo_S1433x128_S_d0_1 : S1433x128.ReducesTo [0, 1] S_
  bcast_S_S128 : S_.BroadcastsInDim S128 (![] : Fin 0 → Fin S128.rank)
  reducesTo_S128_S_d0 : S128.ReducesTo [0] S_
  bcast_S_S128x7 : S_.BroadcastsInDim S128x7 (![] : Fin 0 → Fin S128x7.rank)
  reducesTo_S128x7_S_d0_1 : S128x7.ReducesTo [0, 1] S_
  bcast_S_S7 : S_.BroadcastsInDim S7 (![] : Fin 0 → Fin S7.rank)
  reducesTo_S7_S_d0 : S7.ReducesTo [0] S_

variable [Facts]

def fn_part1 {F : FTy → Type} [FloatOps F] (main_arg6 : FVec F S7 .f32) (main_v13 : IVec S_ 1) (main_v16 : IVec S128x7 1) : IVec S_ 1 :=
  let main_c_5 : IVec S_ 1 := constantI S_ 1 1#1
  let main_v17 : IVec S_ 1 := (fun x v => Host.reduce IntOp.andi x v reducesTo_S128x7_S_d0_1 h_S_) main_v16 main_c_5
  let main_v18 : IVec S_ 1 := andi main_v13 main_v17
  let main_v19 : FVec F S7 .f32 := Host.absf main_arg6
  let main_cst_6 : FVec F S_ .f32 := constant S_ .f32 0x7F800000#32
  let main_v20 : FVec F S7 .f32 := broadcastInDim S7 ![] bcast_S_S7 main_cst_6
  let main_v21 : IVec S7 1 := cmpf .olt main_v19 main_v20
  let main_c_7 : IVec S_ 1 := constantI S_ 1 1#1
  let main_v22 : IVec S_ 1 := (fun x v => Host.reduce IntOp.andi x v reducesTo_S7_S_d0 h_S_) main_v21 main_c_7
  let main_v23 : IVec S_ 1 := andi main_v18 main_v22
  main_v23

def fn {F : FTy → Type} [FloatOps F] (main_arg0 : FVec F S50000x1433 .f32) (main_arg1 : IVec S1600000 32) (main_arg2 : IVec S1600000 32) (main_arg3 : FVec F S1433x128 .f32) (main_arg4 : FVec F S128 .f32) (main_arg5 : FVec F S128x7 .f32) (main_arg6 : FVec F S7 .f32) : IVec S_ 1 :=
  let main_v0 : FVec F S50000x1433 .f32 := Host.absf main_arg0
  let main_cst : FVec F S_ .f32 := constant S_ .f32 0x7F800000#32
  let main_v1 : FVec F S50000x1433 .f32 := broadcastInDim S50000x1433 ![] bcast_S_S50000x1433 main_cst
  let main_v2 : IVec S50000x1433 1 := cmpf .olt main_v0 main_v1
  let main_c : IVec S_ 1 := constantI S_ 1 1#1
  let main_v3 : IVec S_ 1 := (fun x v => Host.reduce IntOp.andi x v reducesTo_S50000x1433_S_d0_1 h_S_) main_v2 main_c
  let main_v4 : FVec F S1433x128 .f32 := Host.absf main_arg3
  let main_cst_0 : FVec F S_ .f32 := constant S_ .f32 0x7F800000#32
  let main_v5 : FVec F S1433x128 .f32 := broadcastInDim S1433x128 ![] bcast_S_S1433x128 main_cst_0
  let main_v6 : IVec S1433x128 1 := cmpf .olt main_v4 main_v5
  let main_c_1 : IVec S_ 1 := constantI S_ 1 1#1
  let main_v7 : IVec S_ 1 := (fun x v => Host.reduce IntOp.andi x v reducesTo_S1433x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x7 .f32 := Host.absf main_arg5
  let main_cst_4 : FVec F S_ .f32 := constant S_ .f32 0x7F800000#32
  let main_v15 : FVec F S128x7 .f32 := broadcastInDim S128x7 ![] bcast_S_S128x7 main_cst_4
  let main_v16 : IVec S128x7 1 := cmpf .olt main_v14 main_v15
  fn_part1 (F := F) main_arg6 main_v13 main_v16
-- ==== Kernel.lean ====
abbrev S50000x1433 : Shape := ⟨2, ![50000, 1433]⟩
abbrev S1600000 : Shape := ⟨1, ![1600000]⟩
abbrev S1433x128 : Shape := ⟨2, ![1433, 128]⟩
abbrev S128 : Shape := ⟨1, ![128]⟩
abbrev S128x7 : Shape := ⟨2, ![128, 7]⟩
abbrev S7 : Shape := ⟨1, ![7]⟩
abbrev S_ : Shape := ⟨0, ![]⟩
abbrev S50000 : Shape := ⟨1, ![50000]⟩
abbrev S1600000x1 : Shape := ⟨2, ![1600000, 1]⟩
abbrev S50000x1 : Shape := ⟨2, ![50000, 1]⟩
abbrev S50000x128 : Shape := ⟨2, ![50000, 128]⟩
abbrev S1000x1433 : Shape := ⟨2, ![1000, 1433]⟩
abbrev S1000x1 : Shape := ⟨2, ![1000, 1]⟩
abbrev S1000x128 : Shape := ⟨2, ![1000, 128]⟩
abbrev S1600000x128 : Shape := ⟨2, ![1600000, 128]⟩
abbrev S1x128 : Shape := ⟨2, ![1, 128]⟩
abbrev S50000x7 : Shape := ⟨2, ![50000, 7]⟩
abbrev S2000x128 : Shape := ⟨2, ![2000, 128]⟩
abbrev S2000x1 : Shape := ⟨2, ![2000, 1]⟩
abbrev S2000x7 : Shape := ⟨2, ![2000, 7]⟩
abbrev S1600000x7 : Shape := ⟨2, ![1600000, 7]⟩
abbrev S1x7 : Shape := ⟨2, ![1, 7]⟩

abbrev nBuf : Space → Nat
  | .hbm => 62
  | .vmem => 24
  | .smem => 0
  | _ => 0

abbrev bufTy : (tb : Table) → Fin (tcTables nBuf tb) → BufTy
  | .hbm, ⟨0, _⟩ => ⟨S50000x1433, .f32⟩
  | .hbm, ⟨1, _⟩ => ⟨S1600000, .i32⟩
  | .hbm, ⟨2, _⟩ => ⟨S1600000, .i32⟩
  | .hbm, ⟨3, _⟩ => ⟨S1433x128, .f32⟩
  | .hbm, ⟨4, _⟩ => ⟨S128, .f32⟩
  | .hbm, ⟨5, _⟩ => ⟨S128x7, .f32⟩
  | .hbm, ⟨6, _⟩ => ⟨S7, .f32⟩
  | .hbm, ⟨7, _⟩ => ⟨S_, .f32⟩
  | .hbm, ⟨8, _⟩ => ⟨S1600000, .f32⟩
  | .hbm, ⟨9, _⟩ => ⟨S_, .f32⟩
  | .hbm, ⟨10, _⟩ => ⟨S50000, .f32⟩
  | .hbm, ⟨11, _⟩ => ⟨S1600000x1, .i32⟩
  | .hbm, ⟨12, _⟩ => ⟨S50000, .f32⟩
  | .hbm, ⟨13, _⟩ => ⟨S_, .f32⟩
  | .hbm, ⟨14, _⟩ => ⟨S50000, .f32⟩
  | .hbm, ⟨15, _⟩ => ⟨S50000, .f32⟩
  | .hbm, ⟨16, _⟩ => ⟨S50000, .f32⟩
  | .hbm, ⟨17, _⟩ => ⟨S_, .f32⟩
  | .hbm, ⟨18, _⟩ => ⟨S1600000, .f32⟩
  | .hbm, ⟨19, _⟩ => ⟨S_, .f32⟩
  | .hbm, ⟨20, _⟩ => ⟨S50000, .f32⟩
  | .hbm, ⟨21, _⟩ => ⟨S1600000x1, .i32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S50000, .f32⟩
  | .hbm, ⟨27, _⟩ => ⟨S50000x1, .f32⟩
  | .hbm, ⟨28, _⟩ => ⟨S50000x1, .f32⟩
  | .hbm, ⟨29, _⟩ => ⟨S1433x128, .bf16⟩
  | .hbm, ⟨30, _⟩ => ⟨S128x7, .bf16⟩
  | .hbm, ⟨31, _⟩ => ⟨S50000x128, .f32⟩
  | .hbm, ⟨32, _⟩ => ⟨S_, .i32⟩
  | .hbm, ⟨33, _⟩ => ⟨S1600000, .i32⟩
  | .hbm, ⟨34, _⟩ => ⟨S1600000, .i1⟩
  | .hbm, ⟨35, _⟩ => ⟨S_, .i32⟩
  | .hbm, ⟨36, _⟩ => ⟨S1600000, .i32⟩
  | .hbm, ⟨37, _⟩ => ⟨S1600000, .i32⟩
  | .hbm, ⟨38, _⟩ => ⟨S1600000, .i32⟩
  | .hbm, ⟨39, _⟩ => ⟨S1600000x1, .i32⟩
  | .hbm, ⟨40, _⟩ => ⟨S1600000x128, .f32⟩
  | .hbm, ⟨41, _⟩ => ⟨S_, .f32⟩
  | .hbm, ⟨42, _⟩ => ⟨S50000x128, .f32⟩
  | .hbm, ⟨43, _⟩ => ⟨S1600000x1, .i32⟩
  | .hbm, ⟨44, _⟩ => ⟨S50000x128, .f32⟩
  | .hbm, ⟨45, _⟩ => ⟨S1x128, .f32⟩
  | .hbm, ⟨46, _⟩ => ⟨S50000x7, .f32⟩
  | .hbm, ⟨47, _⟩ => ⟨S_, .i32⟩
  | .hbm, ⟨48, _⟩ => ⟨S1600000, .i32⟩
  | .hbm, ⟨49, _⟩ => ⟨S1600000, .i1⟩
  | .hbm, ⟨50, _⟩ => ⟨S_, .i32⟩
  | .hbm, ⟨51, _⟩ => ⟨S1600000, .i32⟩
  | .hbm, ⟨52, _⟩ => ⟨S1600000, .i32⟩
  | .hbm, ⟨53, _⟩ => ⟨S1600000, .i32⟩
  | .hbm, ⟨54, _⟩ => ⟨S1600000x1, .i32⟩
  | .hbm, ⟨55, _⟩ => ⟨S1600000x7, .f32⟩
  | .hbm, ⟨56, _⟩ => ⟨S_, .f32⟩
  | .hbm, ⟨57, _⟩ => ⟨S50000x7, .f32⟩
  | .hbm, ⟨58, _⟩ => ⟨S1600000x1, .i32⟩
  | .hbm, ⟨59, _⟩ => ⟨S50000x7, .f32⟩
  | .hbm, ⟨60, _⟩ => ⟨S1x7, .f32⟩
  | .hbm, ⟨61, _⟩ => ⟨S50000x7, .f32⟩
  | .local _ .vmem, ⟨0, _⟩ => ⟨S1000x1433, .f32⟩
  | .local _ .vmem, ⟨1, _⟩ => ⟨S1000x1433, .f32⟩
  | .local _ .vmem, ⟨2, _⟩ => ⟨S1000x1, .f32⟩
  | .local _ .vmem, ⟨3, _⟩ => ⟨S1000x1, .f32⟩
  | .local _ .vmem, ⟨4, _⟩ => ⟨S1433x128, .bf16⟩
  | .local _ .vmem, ⟨5, _⟩ => ⟨S1000x128, .f32⟩
  | .local _ .vmem, ⟨6, _⟩ => ⟨S1000x128, .f32⟩
  | .local _ .vmem, ⟨7, _⟩ => ⟨S2000x128, .f32⟩
  | .local _ .vmem, ⟨8, _⟩ => ⟨S2000x128, .f32⟩
  | .local _ .vmem, ⟨9, _⟩ => ⟨S2000x1, .f32⟩
  | .local _ .vmem, ⟨10, _⟩ => ⟨S2000x1, .f32⟩
  | .local _ .vmem, ⟨11, _⟩ => ⟨S1x128, .f32⟩
  | .local _ .vmem, ⟨12, _⟩ => ⟨S2000x1, .f32⟩
  | .local _ .vmem, ⟨13, _⟩ => ⟨S2000x1, .f32⟩
  | .local _ .vmem, ⟨14, _⟩ => ⟨S128x7, .bf16⟩
  | .local _ .vmem, ⟨15, _⟩ => ⟨S2000x7, .f32⟩
  | .local _ .vmem, ⟨16, _⟩ => ⟨S2000x7, .f32⟩
  | .local _ .vmem, ⟨17, _⟩ => ⟨S2000x7, .f32⟩
  | .local _ .vmem, ⟨18, _⟩ => ⟨S2000x7, .f32⟩
  | .local _ .vmem, ⟨19, _⟩ => ⟨S2000x1, .f32⟩
  | .local _ .vmem, ⟨20, _⟩ => ⟨S2000x1, .f32⟩
  | .local _ .vmem, ⟨21, _⟩ => ⟨S1x7, .f32⟩
  | .local _ .vmem, ⟨22, _⟩ => ⟨S2000x7, .f32⟩
  | .local _ .vmem, ⟨23, _⟩ => ⟨S2000x7, .f32⟩
  | _, _ => ⟨S50000x1433, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_cst_3 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_4 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c : Ref sig .tc := ⟨.hbm, 32, rfl⟩
abbrev main_v19 : Ref sig .tc := ⟨.hbm, 33, rfl⟩
abbrev main_v20 : Ref sig .tc := ⟨.hbm, 34, rfl⟩
abbrev main_c_5 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_6 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_7 : Ref sig .tc := ⟨.hbm, 47, rfl⟩
abbrev main_v31 : Ref sig .tc := ⟨.hbm, 48, rfl⟩
abbrev main_v32 : Ref sig .tc := ⟨.hbm, 49, rfl⟩
abbrev main_c_8 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_9 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg5_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg3_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13
abbrev cc1_sem4_0 : DmaSem sig := 14
abbrev cc1_sem5_0 : DmaSem sig := 15
abbrev cc1_sem5_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem3_0 : DmaSem sig := 22
abbrev cc2_sem3_1 : DmaSem sig := 23

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x1433 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1433x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S128x7 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x7 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x7 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x7 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x7 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  bcast_S_S1600000 : S_.BroadcastsInDim S1600000 (![] : Fin 0 → Fin S1600000.rank)
  bcast_S_S50000 : S_.BroadcastsInDim S50000 (![] : Fin 0 → Fin S50000.rank)
  bcast_S1600000_S1600000x1_0 : S1600000.BroadcastsInDim S1600000x1 (![0] : Fin 1 → Fin S1600000x1.rank)
  shapeCasts_S50000_S50000x1 : S50000.ShapeCasts S50000x1
  bitsLt_bf16_f32 : FTy.bits .bf16 < FTy.bits .f32
  inb_S1000x1433_S1000x1433_0_0 : ∀ a, (![0, 0] : Fin 2 → Nat) a + S1000x1433.size a ≤ S1000x1433.size a
  h_S1000x1433 : 0 < S1000x1433.numel
  inb_S1000x1_S1000x1_0_0 : ∀ a, (![0, 0] : Fin 2 → Nat) a + S1000x1.size a ≤ S1000x1.size a
  h_S1000x1 : 0 < S1000x1.numel
  shapeCasts_S1000x1_S1000x1 : S1000x1.ShapeCasts S1000x1
  broadcasts_S1000x1_S1000x1433 : S1000x1.Broadcasts S1000x1433
  inb_S1433x128_S1433x128_0_0 : ∀ a, (![0, 0] : Fin 2 → Nat) a + S1433x128.size a ≤ S1433x128.size a
  h_S1433x128 : 0 < S1433x128.numel
  shapeCasts_S1433x128_S1433x128 : S1433x128.ShapeCasts S1433x128
  inb_S1000x128_S1000x128_0_0 : ∀ a, (![0, 0] : Fin 2 → Nat) a + S1000x128.size a ≤ S1000x128.size a
  h_S1000x128 : 0 < S1000x128.numel
  bcast_S_S50000x128 : S_.BroadcastsInDim S50000x128 (![] : Fin 0 → Fin S50000x128.rank)
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S128x7_S128x7_0_0 : ∀ a, (![0, 0] : Fin 2 → Nat) a + S128x7.size a ≤ S128x7.size a
  h_S128x7 : 0 < S128x7.numel
  shapeCasts_S128x7_S128x7 : S128x7.ShapeCasts S128x7
  inb_S2000x7_S2000x7_0_0 : ∀ a, (![0, 0] : Fin 2 → Nat) a + S2000x7.size a ≤ S2000x7.size a
  h_S2000x7 : 0 < S2000x7.numel
  bcast_S_S50000x7 : S_.BroadcastsInDim S50000x7 (![] : Fin 0 → Fin S50000x7.rank)
  shapeCasts_S7_S1x7 : S7.ShapeCasts S1x7
  shapeCasts_S2000x7_S2000x7 : S2000x7.ShapeCasts S2000x7
  broadcasts_S2000x1_S2000x7 : S2000x1.Broadcasts S2000x7
  inb_S1x7_S1x7_0_0 : ∀ a, (![0, 0] : Fin 2 → Nat) a + S1x7.size a ≤ S1x7.size a
  h_S1x7 : 0 < S1x7.numel
  shapeCasts_S1x7_S1x7 : S1x7.ShapeCasts S1x7
  broadcasts_S1x7_S2000x7 : S1x7.Broadcasts S2000x7
  scatter_S50000_S1600000x1_S1600000_n_0_0_1_wf : ScatterDims.WF S50000 S1600000x1 S1600000 [] [0] [0] 1
  dot_S1000x1433_S1433x128_S1000x128_1_0_0_1_n_n_wf : DotDims.WF S1000x1433 S1433x128 S1000x128 [1] [0] [0] [1] [] []
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  dot_S2000x128_S128x7_S2000x7_1_0_0_1_n_n_wf : DotDims.WF S2000x128 S128x7 S2000x7 [1] [0] [0] [1] [] []
  gather_S50000x7_S1600000x1_S1600000x7_1_0_n_n_0_1_17_wf : GatherDims.WF S50000x7 S1600000x1 S1600000x7 [1] [0] [] [0] [] 1 ![1, 7]
  scatter_S50000x7_S1600000x1_S1600000x7_1_0_0_1_wf : ScatterDims.WF S50000x7 S1600000x1 S1600000x7 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x1433.size a ≤ S50000x1433.size a
  hwx0_0 : ∀ i : grid0.Coords, EltTy.bits .f32 = 32 ∨ (Rect.block (s := S50000x1433) S1000x1433.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x1.size a ≤ S50000x1.size a
  hwx0_1 : ∀ i : grid0.Coords, EltTy.bits .f32 = 32 ∨ (Rect.block (s := S50000x1) S1000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1433x128.size a ≤ S1433x128.size a
  hwx0_2 : ∀ i : grid0.Coords, EltTy.bits .bf16 = 32 ∨ (Rect.block (s := S1433x128) S1433x128.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1000x128.size a ≤ S50000x128.size a
  hwx0_3 : ∀ i : grid0.Coords, EltTy.bits .f32 = 32 ∨ (Rect.block (s := S50000x128) S1000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S50000x1.size a
  hwx1_1 : ∀ i : grid1.Coords, EltTy.bits .f32 = 32 ∨ (Rect.block (s := S50000x1) S2000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x1.size a ≤ S50000x1.size a
  hwx1_3 : ∀ i : grid1.Coords, EltTy.bits .f32 = 32 ∨ (Rect.block (s := S50000x1) S2000x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x7.size a ≤ S128x7.size a
  hwx1_4 : ∀ i : grid1.Coords, EltTy.bits .bf16 = 32 ∨ (Rect.block (s := S128x7) S128x7.size (cc1_transform_4 i) (hinb1_4 i)).WholeWords (EltTy.packing .bf16)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x7.size a ≤ S50000x7.size a
  hwx1_5 : ∀ i : grid1.Coords, EltTy.bits .f32 = 32 ∨ (Rect.block (s := S50000x7) S2000x7.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x7.size a ≤ S50000x7.size a
  hwx2_0 : ∀ i : grid2.Coords, EltTy.bits .f32 = 32 ∨ (Rect.block (s := S50000x7) S2000x7.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x1.size a ≤ S50000x1.size a
  hwx2_1 : ∀ i : grid2.Coords, EltTy.bits .f32 = 32 ∨ (Rect.block (s := S50000x1) S2000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x7.size a ≤ S1x7.size a
  hwx2_2 : ∀ i : grid2.Coords, EltTy.bits .f32 = 32 ∨ (Rect.block (s := S1x7) S1x7.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x7.size a ≤ S50000x7.size a
  hwx2_3 : ∀ i : grid2.Coords, EltTy.bits .f32 = 32 ∨ (Rect.block (s := S50000x7) S2000x7.size (cc2_transform_3 i) (hinb2_3 i)).WholeWords (EltTy.packing .f32)

variable [Facts₀]

def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def dot_S1000x1433_S1433x128_S1000x128_1_0_0_1_n_n : DotDims S1000x1433 S1433x128 S1000x128 where
  lhsContracting := [1]
  rhsContracting := [0]
  lhsNonContracting := [0]
  rhsNonContracting := [1]
  lhsBatch := []
  rhsBatch := []
  wf := dot_S1000x1433_S1433x128_S1000x128_1_0_0_1_n_n_wf
def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def dot_S2000x128_S128x7_S2000x7_1_0_0_1_n_n : DotDims S2000x128 S128x7 S2000x7 where
  lhsContracting := [1]
  rhsContracting := [0]
  lhsNonContracting := [0]
  rhsNonContracting := [1]
  lhsBatch := []
  rhsBatch := []
  wf := dot_S2000x128_S128x7_S2000x7_1_0_0_1_n_n_wf
def gather_S50000x7_S1600000x1_S1600000x7_1_0_n_n_0_1_17 : GatherDims S50000x7 S1600000x1 S1600000x7 where
  offsetDims := [1]
  collapsedSliceDims := [0]
  operandBatchingDims := []
  startIndicesBatchingDims := []
  startIndexMap := [0]
  indexVectorDim := 1
  sliceSizes := ![1, 7]
  wf := gather_S50000x7_S1600000x1_S1600000x7_1_0_n_n_0_1_17_wf
def scatter_S50000x7_S1600000x1_S1600000x7_1_0_0_1 : ScatterDims S50000x7 S1600000x1 S1600000x7 where
  updateWindowDims := [1]
  insertedWindowDims := [0]
  scatterDimsToOperandDims := [0]
  indexVectorDim := 1
  wf := scatter_S50000x7_S1600000x1_S1600000x7_1_0_0_1_wf

abbrev win0_0 : Pipeline.Window sig grid0 :=
  Pipeline.Window.ofSpec (Memref.whole main_arg0) S1000x1433.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S1000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v16) S1433x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v18) S1000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v28) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v29) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v14) S2000x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v17) S128x7.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v30) S2000x7.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v40) S2000x7.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v15) S2000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v41) S1x7.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v42) S2000x7.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S50000x1433 : Shape := ⟨2, ![50000, 1433]⟩
abbrev S1600000 : Shape := ⟨1, ![1600000]⟩
abbrev S1433x128 : Shape := ⟨2, ![1433, 128]⟩
abbrev S128 : Shape := ⟨1, ![128]⟩
abbrev S128x7 : Shape := ⟨2, ![128, 7]⟩
abbrev S7 : Shape := ⟨1, ![7]⟩
abbrev S_ : Shape := ⟨0, ![]⟩
abbrev S50000 : Shape := ⟨1, ![50000]⟩
abbrev S1600000x1 : Shape := ⟨2, ![1600000, 1]⟩
abbrev S50000x1 : Shape := ⟨2, ![50000, 1]⟩
abbrev S50000x128 : Shape := ⟨2, ![50000, 128]⟩
abbrev S1600000x128 : Shape := ⟨2, ![1600000, 128]⟩
abbrev S1x128 : Shape := ⟨2, ![1, 128]⟩
abbrev S50000x7 : Shape := ⟨2, ![50000, 7]⟩
abbrev S1600000x7 : Shape := ⟨2, ![1600000, 7]⟩
abbrev S1x7 : Shape := ⟨2, ![1, 7]⟩

abbrev nBuf : Space → Nat
  | .hbm => 76
  | .vmem => 0
  | .smem => 0
  | _ => 0

abbrev bufTy : (tb : Table) → Fin (tcTables nBuf tb) → BufTy
  | .hbm, ⟨0, _⟩ => ⟨S50000x1433, .f32⟩
  | .hbm, ⟨1, _⟩ => ⟨S1600000, .i32⟩
  | .hbm, ⟨2, _⟩ => ⟨S1600000, .i32⟩
  | .hbm, ⟨3, _⟩ => ⟨S1433x128, .f32⟩
  | .hbm, ⟨4, _⟩ => ⟨S128, .f32⟩
  | .hbm, ⟨5, _⟩ => ⟨S128x7, .f32⟩
  | .hbm, ⟨6, _⟩ => ⟨S7, .f32⟩
  | .hbm, ⟨7, _⟩ => ⟨S_, .f32⟩
  | .hbm, ⟨8, _⟩ => ⟨S1600000, .f32⟩
  | .hbm, ⟨9, _⟩ => ⟨S_, .f32⟩
  | .hbm, ⟨10, _⟩ => ⟨S50000, .f32⟩
  | .hbm, ⟨11, _⟩ => ⟨S1600000x1, .i32⟩
  | .hbm, ⟨12, _⟩ => ⟨S50000, .f32⟩
  | .hbm, ⟨13, _⟩ => ⟨S_, .f32⟩
  | .hbm, ⟨14, _⟩ => ⟨S50000, .f32⟩
  | .hbm, ⟨15, _⟩ => ⟨S50000, .f32⟩
  | .hbm, ⟨16, _⟩ => ⟨S50000, .f32⟩
  | .hbm, ⟨17, _⟩ => ⟨S_, .f32⟩
  | .hbm, ⟨18, _⟩ => ⟨S1600000, .f32⟩
  | .hbm, ⟨19, _⟩ => ⟨S_, .f32⟩
  | .hbm, ⟨20, _⟩ => ⟨S50000, .f32⟩
  | .hbm, ⟨21, _⟩ => ⟨S1600000x1, .i32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S50000, .f32⟩
  | .hbm, ⟨27, _⟩ => ⟨S50000x1, .f32⟩
  | .hbm, ⟨28, _⟩ => ⟨S50000x1433, .f32⟩
  | .hbm, ⟨29, _⟩ => ⟨S50000x1433, .f32⟩
  | .hbm, ⟨30, _⟩ => ⟨S50000x128, .f32⟩
  | .hbm, ⟨31, _⟩ => ⟨S_, .i32⟩
  | .hbm, ⟨32, _⟩ => ⟨S1600000, .i32⟩
  | .hbm, ⟨33, _⟩ => ⟨S1600000, .i1⟩
  | .hbm, ⟨34, _⟩ => ⟨S_, .i32⟩
  | .hbm, ⟨35, _⟩ => ⟨S1600000, .i32⟩
  | .hbm, ⟨36, _⟩ => ⟨S1600000, .i32⟩
  | .hbm, ⟨37, _⟩ => ⟨S1600000, .i32⟩
  | .hbm, ⟨38, _⟩ => ⟨S1600000x1, .i32⟩
  | .hbm, ⟨39, _⟩ => ⟨S1600000x128, .f32⟩
  | .hbm, ⟨40, _⟩ => ⟨S_, .f32⟩
  | .hbm, ⟨41, _⟩ => ⟨S50000x128, .f32⟩
  | .hbm, ⟨42, _⟩ => ⟨S1600000x1, .i32⟩
  | .hbm, ⟨43, _⟩ => ⟨S50000x128, .f32⟩
  | .hbm, ⟨44, _⟩ => ⟨S50000x1, .f32⟩
  | .hbm, ⟨45, _⟩ => ⟨S50000x128, .f32⟩
  | .hbm, ⟨46, _⟩ => ⟨S50000x128, .f32⟩
  | .hbm, ⟨47, _⟩ => ⟨S1x128, .f32⟩
  | .hbm, ⟨48, _⟩ => ⟨S50000x128, .f32⟩
  | .hbm, ⟨49, _⟩ => ⟨S50000x128, .f32⟩
  | .hbm, ⟨50, _⟩ => ⟨S_, .f32⟩
  | .hbm, ⟨51, _⟩ => ⟨S50000x128, .f32⟩
  | .hbm, ⟨52, _⟩ => ⟨S50000x128, .f32⟩
  | .hbm, ⟨53, _⟩ => ⟨S50000x1, .f32⟩
  | .hbm, ⟨54, _⟩ => ⟨S50000x128, .f32⟩
  | .hbm, ⟨55, _⟩ => ⟨S50000x128, .f32⟩
  | .hbm, ⟨56, _⟩ => ⟨S50000x7, .f32⟩
  | .hbm, ⟨57, _⟩ => ⟨S_, .i32⟩
  | .hbm, ⟨58, _⟩ => ⟨S1600000, .i32⟩
  | .hbm, ⟨59, _⟩ => ⟨S1600000, .i1⟩
  | .hbm, ⟨60, _⟩ => ⟨S_, .i32⟩
  | .hbm, ⟨61, _⟩ => ⟨S1600000, .i32⟩
  | .hbm, ⟨62, _⟩ => ⟨S1600000, .i32⟩
  | .hbm, ⟨63, _⟩ => ⟨S1600000, .i32⟩
  | .hbm, ⟨64, _⟩ => ⟨S1600000x1, .i32⟩
  | .hbm, ⟨65, _⟩ => ⟨S1600000x7, .f32⟩
  | .hbm, ⟨66, _⟩ => ⟨S_, .f32⟩
  | .hbm, ⟨67, _⟩ => ⟨S50000x7, .f32⟩
  | .hbm, ⟨68, _⟩ => ⟨S1600000x1, .i32⟩
  | .hbm, ⟨69, _⟩ => ⟨S50000x7, .f32⟩
  | .hbm, ⟨70, _⟩ => ⟨S50000x1, .f32⟩
  | .hbm, ⟨71, _⟩ => ⟨S50000x7, .f32⟩
  | .hbm, ⟨72, _⟩ => ⟨S50000x7, .f32⟩
  | .hbm, ⟨73, _⟩ => ⟨S1x7, .f32⟩
  | .hbm, ⟨74, _⟩ => ⟨S50000x7, .f32⟩
  | .hbm, ⟨75, _⟩ => ⟨S50000x7, .f32⟩
  | _, _ => ⟨S50000x1433, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_cst_3 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_4 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_c : Ref sig .tc := ⟨.hbm, 31, rfl⟩
abbrev main_v18 : Ref sig .tc := ⟨.hbm, 32, rfl⟩
abbrev main_v19 : Ref sig .tc := ⟨.hbm, 33, rfl⟩
abbrev main_c_5 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_6 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_call0_cst : Ref sig .tc := ⟨.hbm, 50, rfl⟩
abbrev main_call0_v0 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_c_7 : Ref sig .tc := ⟨.hbm, 57, rfl⟩
abbrev main_v39 : Ref sig .tc := ⟨.hbm, 58, rfl⟩
abbrev main_v40 : Ref sig .tc := ⟨.hbm, 59, rfl⟩
abbrev main_c_8 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_9 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S50000 : S_.BroadcastsInDim S50000 (![] : Fin 0 → Fin S50000.rank)
  bcast_S1600000_S1600000x1_0 : S1600000.BroadcastsInDim S1600000x1 (![0] : Fin 1 → Fin S1600000x1.rank)
  bcast_S50000_S50000x1_0 : S50000.BroadcastsInDim S50000x1 (![0] : Fin 1 → Fin S50000x1.rank)
  bcast_S50000x1_S50000x1433_0_1 : S50000x1.BroadcastsInDim S50000x1433 (![0, 1] : Fin 2 → Fin S50000x1433.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x7 : S_.BroadcastsInDim S50000x7 (![] : Fin 0 → Fin S50000x7.rank)
  bcast_S50000x1_S50000x7_0_1 : S50000x1.BroadcastsInDim S50000x7 (![0, 1] : Fin 2 → Fin S50000x7.rank)
  bcast_S7_S1x7_1 : S7.BroadcastsInDim S1x7 (![1] : Fin 1 → Fin S1x7.rank)
  bcast_S1x7_S50000x7_0_1 : S1x7.BroadcastsInDim S50000x7 (![0, 1] : Fin 2 → Fin S50000x7.rank)
  scatter_S50000_S1600000x1_S1600000_n_0_0_1_wf : ScatterDims.WF S50000 S1600000x1 S1600000 [] [0] [0] 1
  dot_S50000x1433_S1433x128_S50000x128_1_0_0_1_n_n_wf : DotDims.WF S50000x1433 S1433x128 S50000x128 [1] [0] [0] [1] [] []
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  dot_S50000x128_S128x7_S50000x7_1_0_0_1_n_n_wf : DotDims.WF S50000x128 S128x7 S50000x7 [1] [0] [0] [1] [] []
  gather_S50000x7_S1600000x1_S1600000x7_1_0_n_n_0_1_17_wf : GatherDims.WF S50000x7 S1600000x1 S1600000x7 [1] [0] [] [0] [] 1 ![1, 7]
  scatter_S50000x7_S1600000x1_S1600000x7_1_0_0_1_wf : ScatterDims.WF S50000x7 S1600000x1 S1600000x7 [1] [0] [0] 1

variable [Facts₀]

def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def dot_S50000x1433_S1433x128_S50000x128_1_0_0_1_n_n : DotDims S50000x1433 S1433x128 S50000x128 where
  lhsContracting := [1]
  rhsContracting := [0]
  lhsNonContracting := [0]
  rhsNonContracting := [1]
  lhsBatch := []
  rhsBatch := []
  wf := dot_S50000x1433_S1433x128_S50000x128_1_0_0_1_n_n_wf
def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def dot_S50000x128_S128x7_S50000x7_1_0_0_1_n_n : DotDims S50000x128 S128x7 S50000x7 where
  lhsContracting := [1]
  rhsContracting := [0]
  lhsNonContracting := [0]
  rhsNonContracting := [1]
  lhsBatch := []
  rhsBatch := []
  wf := dot_S50000x128_S128x7_S50000x7_1_0_0_1_n_n_wf
def gather_S50000x7_S1600000x1_S1600000x7_1_0_n_n_0_1_17 : GatherDims S50000x7 S1600000x1 S1600000x7 where
  offsetDims := [1]
  collapsedSliceDims := [0]
  operandBatchingDims := []
  startIndicesBatchingDims := []
  startIndexMap := [0]
  indexVectorDim := 1
  sliceSizes := ![1, 7]
  wf := gather_S50000x7_S1600000x1_S1600000x7_1_0_n_n_0_1_17_wf
def scatter_S50000x7_S1600000x1_S1600000x7_1_0_0_1 : ScatterDims S50000x7 S1600000x1 S1600000x7 where
  updateWindowDims := [1]
  insertedWindowDims := [0]
  scatterDimsToOperandDims := [0]
  indexVectorDim := 1
  wf := scatter_S50000x7_S1600000x1_S1600000x7_1_0_0_1_wf

class Facts : Prop extends Facts₀ where

variable [Facts]
-- ==== Proof.Spec.lean ====
/-
  The function both programs compute, as one composition of named stages on the extended reals.

  The graph has 50000 nodes and 1600000 edges (src[e] → dst[e]).  With ns = rsqrt(max(outdeg, 1)) and
  nd = rsqrt(max(indeg, 1)), each degree a scatter-add of ones, a layer is
      conv(x, W, b) = S(((x ⊙ ns) · W)[src], dst) ⊙ nd + b,
  where S is the scatter-add over the edges' destinations of the gathered source rows, and the result is
      conv(max(conv(features, W1, b1), 0), W2, b2).
  The stages below are spelt exactly as the reference program's host operations spell them, so that the reference's
  result term is this composition by unfolding (`ref_eq`).  The columns ns, nd and the bias rows are parameters of the
  stages: the kernel's program builds them by a reshape, the reference by a broadcast along a named axis.
-/
import Idealize.ShloMosaic.PureOps.Ideal.Laws
import proofs.«145729_j24232205484470_2_alg».proof.ReferenceIdeal
import proofs.«145729_j24232205484470_2_alg».proof.Proof.Gen.ReferenceIdeal
import proofs.«145729_j24232205484470_2_alg».proof.Proof.Gen.ReferenceIdeal.Run

noncomputable section

namespace Cert.GraphSpec

open Idealize.ShloMosaic Idealize.ShloMosaic.TcCoe Cert.ReferenceIdeal Cert.ReferenceIdeal.Facts₀

/-- An edge-index array, a per-node vector, and the matrices of the two layers. -/
abbrev EdgeIdx := IVec S1600000 32
abbrev NodeVec := FVec Ideal S50000 .f32
abbrev NodeCol := FVec Ideal S50000x1 .f32

/-- rsqrt(max(degree, 1)): the degree is the scatter-add of a one per edge into the edge's end node. -/
def degNorm (idx : EdgeIdx) : NodeVec :=
  Host.rsqrt (F := Ideal) (maximumf (F := Ideal) (Host.scatterAdd (F := Ideal) scatter_S50000_S1600000x1_S1600000_n_0_0_1
      (broadcastInDim S50000 ![] bcast_S_S50000 (constant (F := Ideal) S_ .f32 0x00000000#32))
      (broadcastInDim S1600000x1 ![0] bcast_S1600000_S1600000x1_0 idx)
      (broadcastInDim S1600000 ![] bcast_S_S1600000 (constant (F := Ideal) S_ .f32 0x3F800000#32)))
    (broadcastInDim S50000 ![] bcast_S_S50000 (constant (F := Ideal) S_ .f32 0x3F800000#32)))

/-- A per-node vector as a column. -/
def col (v : NodeVec) : NodeCol := broadcastInDim S50000x1 ![0] bcast_S50000_S50000x1_0 v

/-- The source indices as the gather takes them: a negative index counted from the end, as a column of index vectors. -/
def wrapIdx (src : EdgeIdx) : IVec S1600000x1 32 :=
  broadcastInDim S1600000x1 ![0] bcast_S1600000_S1600000x1_0
    (select (cmpi .slt src (broadcastInDim S1600000 ![] bcast_S_S1600000 (constantI S_ 32 0#32)))
      (addi src (broadcastInDim S1600000 ![] bcast_S_S1600000 (constantI S_ 32 50000#32))) src)

/-- Layer 1's aggregation: the source rows gathered along the edges, added into the destination rows. -/
def agg128 (h : FVec Ideal S50000x128 .f32) (src dst : EdgeIdx) :
    FVec Ideal S50000x128 .f32 :=
  Host.scatterAdd (F := Ideal) scatter_S50000x128_S1600000x1_S1600000x128_1_0_0_1
    (broadcastInDim S50000x128 ![] bcast_S_S50000x128 (constant (F := Ideal) S_ .f32 0x00000000#32))
    (broadcastInDim S1600000x1 ![0] bcast_S1600000_S1600000x1_0 dst)
    (Host.gather gather_S50000x128_S1600000x1_S1600000x128_1_0_n_n_0_1_1128 h (wrapIdx src))

/-- Layer 2's aggregation. -/
def agg7 (h : FVec Ideal S50000x7 .f32) (src dst : EdgeIdx) :
    FVec Ideal S50000x7 .f32 :=
  Host.scatterAdd (F := Ideal) scatter_S50000x7_S1600000x1_S1600000x7_1_0_0_1
    (broadcastInDim S50000x7 ![] bcast_S_S50000x7 (constant (F := Ideal) S_ .f32 0x00000000#32))
    (broadcastInDim S1600000x1 ![0] bcast_S1600000_S1600000x1_0 dst)
    (Host.gather gather_S50000x7_S1600000x1_S1600000x7_1_0_n_n_0_1_17 h (wrapIdx src))

/-- Layer 1's dense part: (X ⊙ n) · W. -/
def lin1 (X : FVec Ideal S50000x1433 .f32) (n : NodeCol)
    (W : FVec Ideal S1433x128 .f32) : FVec Ideal S50000x128 .f32 :=
  Host.dotGeneral (F := Ideal) dot_S50000x1433_S1433x128_S50000x128_1_0_0_1_n_n none
    (mulf (F := Ideal) X (broadcastInDim S50000x1433 ![0, 1] bcast_S50000x1_S50000x1433_0_1 n)) W

/-- Layer 2's dense part on the rectified layer-1 output: (max(A ⊙ nd + r, 0) ⊙ ns) · W. -/
def lin2 (A : FVec Ideal S50000x128 .f32) (nd : NodeCol)
    (r : FVec Ideal S1x128 .f32) (ns : NodeCol)
    (W : FVec Ideal S128x7 .f32) : FVec Ideal S50000x7 .f32 :=
  Host.dotGeneral (F := Ideal) dot_S50000x128_S128x7_S50000x7_1_0_0_1_n_n none
    (mulf (F := Ideal) (maximumf (F := Ideal) (addf (F := Ideal) (mulf (F := Ideal) A (broadcastInDim S50000x128 ![0, 1] bcast_S50000x1_S50000x128_0_1 nd))
          (broadcastInDim S50000x128 ![0, 1] bcast_S1x128_S50000x128_0_1 r))
        (broadcastInDim S50000x128 ![] bcast_S_S50000x128 (constant (F := Ideal) S_ .f32 0x00000000#32)))
      (broadcastInDim S50000x128 ![0, 1] bcast_S50000x1_S50000x128_0_1 ns)) W

/-- The last stage: A ⊙ nd + r. -/
def fin (A : FVec Ideal S50000x7 .f32) (nd : NodeCol)
    (r : FVec Ideal S1x7 .f32) : FVec Ideal S50000x7 .f32 :=
  addf (F := Ideal) (mulf (F := Ideal) A (broadcastInDim S50000x7 ![0, 1] bcast_S50000x1_S50000x7_0_1 nd))
    (broadcastInDim S50000x7 ![0, 1] bcast_S1x7_S50000x7_0_1 r)

/-- The bias vectors as rows. -/
def row128 (b : FVec Ideal S128 .f32) : FVec Ideal S1x128 .f32 :=
  broadcastInDim S1x128 ![1] bcast_S128_S1x128_1 b
def row7 (b : FVec Ideal S7 .f32) : FVec Ideal S1x7 .f32 :=
  broadcastInDim S1x7 ![1] bcast_S7_S1x7_1 b

/-- The two-layer graph convolution of the seven arguments. -/
def result (X : FVec Ideal S50000x1433 .f32) (src dst : EdgeIdx)
    (W1 : FVec Ideal S1433x128 .f32) (b1 : FVec Ideal S128 .f32)
    (W2 : FVec Ideal S128x7 .f32) (b2 : FVec Ideal S7 .f32) :
    FVec Ideal S50000x7 .f32 :=
  fin (agg7 (lin2 (agg128 (lin1 X (col (degNorm src)) W1) src dst) (col (degNorm dst)) (row128 b1) (col (degNorm src)) W2)
    src dst) (col (degNorm dst)) (row7 b2)

set_option maxRecDepth 8192 in
/-- The reference program's result term is that composition of its arguments. -/
theorem ref_eq (m : (ℓ : Loc nD τ sig) → Buf (Elt Ideal) ℓ) (c : Dev nD) :
    Cert.ReferenceIdeal.Value.res_main_v54 (F := Ideal) m c
      = result (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) := rfl

end Cert.GraphSpec

end
-- ==== Proof.LibLayout.lean ====
/-
  Layout operations of small rank read at an index written by coordinates, and a row sum.

  A column vector `[a, 1]` made from a vector `[a]`, a column broadcast along the rows of a matrix `[a, b]`, and the
  sum of a matrix's rows by a reduction over its second axis: each read at `ix1` / `ix2` coordinates.
-/
import Idealize.ShloMosaic.Lib.Pipeline.Value
import Idealize.ShloMosaic.Lib.ValueIdx
import Idealize.ShloMosaic.Lib.ValueLayout
import Idealize.ShloMosaic.PureOps.Ideal.Laws

namespace Cert.LibLayout

open Idealize.ShloMosaic Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum over the second axis of a matrix of extended reals, read at row `n`: the row's sum. -/
theorem multiReduction_add_rows {a b : ℕ} (src : FVec Ideal ⟨2, ![a, b]⟩ .f32) (acc : BitVec 32)
    (h : (⟨2, ![a, b]⟩ : Shape).Reduces [1] ⟨1, ![a]⟩) (hφ : FKind.Formats FTy.f32) (hacc : acc = FKind.add.neutral FTy.f32 hφ)
    (n : Fin a) :
    multiReduction .add [1] ⟨1, ![a]⟩ src acc h hφ hacc (ix1 n) = ∑ k : Fin b, src (ix2 n k) := by
  refine (Ideal.multiReduction_add_single src acc h hφ hacc (ix1 n)).trans ?_
  refine Finset.sum_congr rfl fun k _ => ?_
  exact congrArg src (funext fun ax => Fin.ext (by match ax with | ⟨0, _⟩ => rfl | ⟨1, _⟩ => rfl))

/-- The maximum over the second axis of a matrix of extended reals, read at row `n`: the fold of `max` over the row
    from the accumulator's value. -/
theorem multiReduction_max_rows {a b : ℕ} (src : FVec Ideal ⟨2, ![a, b]⟩ .f32) (acc : BitVec 32)
    (h : (⟨2, ![a, b]⟩ : Shape).Reduces [1] ⟨1, ![a]⟩) (hφ : FKind.Formats FTy.f32) (hacc : acc = FKind.maximumf.neutral FTy.f32 hφ)
    (n : Fin a) :
    multiReduction .maximumf [1] ⟨1, ![a]⟩ src acc h hφ hacc (ix1 n)
      = (Finset.univ : Finset (Fin b)).fold max (Ideal.ofBits .f32 acc) (fun k => src (ix2 n k)) := by
  refine (Ideal.multiReduction_maximumf_single src acc h hφ hacc (ix1 n)).trans ?_
  refine congrArg (Finset.fold max (Ideal.ofBits .f32 acc) · Finset.univ) (funext fun k => ?_)
  exact congrArg src (funext fun ax => Fin.ext (by match ax with | ⟨0, _⟩ => rfl | ⟨1, _⟩ => rfl))

/-- The row sum and the row maximum with the accumulator's word and its proof spelt as a printed body spells them (the
    zero word; the `-∞` word), so that they rewrite a printed reduction where it stands. -/
theorem sum_rows_apply {a b : ℕ} (src : FVec Ideal ⟨2, ![a, b]⟩ .f32)
    (h : (⟨2, ![a, b]⟩ : Shape).Reduces [1] ⟨1, ![a]⟩) (hφ : FKind.Formats FTy.f32)
    (hacc : (0x00000000#32 : BitVec 32) = 0x00000000#32) (n : Fin a) :
    multiReduction .add [1] ⟨1, ![a]⟩ src 0x00000000#32 h hφ hacc (ix1 n) = ∑ k : Fin b, src (ix2 n k) :=
  multiReduction_add_rows src 0x00000000#32 h hφ hacc n

theorem max_rows_apply {a b : ℕ} (src : FVec Ideal ⟨2, ![a, b]⟩ .f32)
    (h : (⟨2, ![a, b]⟩ : Shape).Reduces [1] ⟨1, ![a]⟩) (hφ : FKind.Formats FTy.f32)
    (hacc : (0xFF800000#32 : BitVec 32) = 0xFF800000#32) (n : Fin a) :
    multiReduction .maximumf [1] ⟨1, ![a]⟩ src 0xFF800000#32 h hφ hacc (ix1 n)
      = (Finset.univ : Finset (Fin b)).fold max (Ideal.ofBits .f32 0xFF800000#32) (fun k => src (ix2 n k)) :=
  multiReduction_max_rows src 0xFF800000#32 h hφ hacc n

/-- A vector `[b]` laid as one row and repeated down the rows of `[a, b]` reads, at `(p, c)`, the vector at `c`
    (a bias added to every row). -/
theorem rowBias_apply {a b : ℕ} (v : (⟨1, ![b]⟩ : Shape).Idx → α) (h1 : (⟨1, ![b]⟩ : Shape).ShapeCasts ⟨2, ![1, b]⟩)
    (h2 : (⟨2, ![1, b]⟩ : Shape).Broadcasts ⟨2, ![a, b]⟩) (p : Fin a) (c : Fin b) :
    broadcastTo ⟨2, ![a, b]⟩ (shapeCast ⟨2, ![1, b]⟩ v h1) h2 (ix2 p c) = v (ix1 c) :=
  (broadcastTo_1b_ab_apply _ h2 p c).trans (shapeCast_a_1a_apply v h1 0 c)

/-- A matrix product of rows with rows (`A · Bᵀ`: the second axis of each operand contracted) into a zero accumulator,
    on the extended reals: entry `(p, q)` is the sum over `k` of `A[p, k] · B[q, k]`.  The record's own facts (one
    contracted axis of extent `K`; the free axes' coordinates) are hypotheses, closed at a literal record by
    `rfl` and by unfolding the index functions. -/
theorem matmul_rows_rows_apply {M K N : ℕ} {φ₁ φ₂ : FTy} (d : DotDims ⟨2, ![M, K]⟩ ⟨2, ![N, K]⟩ ⟨2, ![M, N]⟩)
    (hr : d.contr.rank = 1) (hs : d.contr.size ⟨0, by omega⟩ = K)
    (hlc : d.lhsContracting = [1]) (hrc : d.rhsContracting = [1])
    (hl0 : ∀ j k, (d.lhsIdx j k 0).val = (j 0).val) (hr0 : ∀ j k, (d.rhsIdx j k 0).val = (j 1).val)
    (prec : Option ContractPrecision) (lhs : FVec Ideal ⟨2, ![M, K]⟩ φ₁) (rhs : FVec Ideal ⟨2, ![N, K]⟩ φ₂) (p : Fin M) (q : Fin N) :
    matmul d prec lhs rhs (constant ⟨2, ![M, N]⟩ .f32 0x00000000#32) (ix2 p q) = ∑ k : Fin K, lhs (ix2 p k) * rhs (ix2 q k) := by
  refine (Ideal.matmul_constant_zero_apply d prec lhs rhs (ix2 p q)).trans ?_
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (d.lhsIdx_val_of_single hlc _ _).trans hk)
  have er : d.rhsIdx (ix2 p q) ((contrEquiv1 d K hr hs).symm k) = ix2 q k := funext fun a => Fin.ext (by
    match a with
    | ⟨0, _⟩ => exact hr0 _ _
    | ⟨1, _⟩ => exact (d.rhsIdx_val_of_single hrc _ _).trans hk)
  rw [el, er]

/-- A matrix product of rows with columns (`A · B`: the left operand's second axis against the right operand's first)
    into a zero accumulator, on the extended reals: entry `(p, q)` is the sum over `k` of `A[p, k] · B[k, q]`. -/
theorem matmul_rows_cols_apply {M K N : ℕ} {φ₁ φ₂ : FTy} (d : DotDims ⟨2, ![M, K]⟩ ⟨2, ![K, N]⟩ ⟨2, ![M, N]⟩)
    (hr : d.contr.rank = 1) (hs : d.contr.size ⟨0, by omega⟩ = K)
    (hlc : d.lhsContracting = [1]) (hrc : d.rhsContracting = [0])
    (hl0 : ∀ j k, (d.lhsIdx j k 0).val = (j 0).val) (hr1 : ∀ j k, (d.rhsIdx j k 1).val = (j 1).val)
    (prec : Option ContractPrecision) (lhs : FVec Ideal ⟨2, ![M, K]⟩ φ₁) (rhs : FVec Ideal ⟨2, ![K, N]⟩ φ₂) (p : Fin M) (q : Fin N) :
    matmul d prec lhs rhs (constant ⟨2, ![M, N]⟩ .f32 0x00000000#32) (ix2 p q) = ∑ k : Fin K, lhs (ix2 p k) * rhs (ix2 k q) := by
  refine (Ideal.matmul_constant_zero_apply d prec lhs rhs (ix2 p q)).trans ?_
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (d.lhsIdx_val_of_single hlc _ _).trans hk)
  have er : d.rhsIdx (ix2 p q) ((contrEquiv1 d K hr hs).symm k) = ix2 k q := funext fun a => Fin.ext (by
    match a with
    | ⟨0, _⟩ => exact (d.rhsIdx_val_of_single hrc _ _).trans hk
    | ⟨1, _⟩ => exact hr1 _ _)
  rw [el, er]

/-- A vector cut from `o` reads, at `j`, the source at `o + j`. -/
theorem slice1_eq {n0 m : Nat} (o : Nat) (X : (⟨1, ![n0]⟩ : Shape).Idx → α)
    (h : (⟨1, ![n0]⟩ : Shape).Slices ![o] ⟨1, ![m]⟩) (j : Fin m) :
    extractStridedSlice ⟨1, ![m]⟩ ![o] X h (ix1 j)
      = X (ix1 ⟨o + j.val, Nat.lt_of_lt_of_le (Nat.add_lt_add_left j.isLt o) (h.2 0)⟩) :=
  extractStridedSlice_apply _ _ _ _ _ (fun ax => by
    match ax with
    | ⟨0, _⟩ => rfl)

/-- A column `[a, 1]` read back as the vector `[a]`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A sum over 512 terms is the sum of its eight runs of 64. -/
theorem sum_512_eq_8x64 {M : Type*} [AddCommMonoid M] (f : Fin 512 → M) :
    ∑ r : Fin 512, f r = ∑ c : Fin 8, ∑ j : Fin 64, f ⟨64 * c.val + j.val, by omega⟩ := by
  have e := Equiv.sum_comp (finProdFinEquiv (m := 8) (n := 64)) (fun r : Fin (8 * 64) => f r)
  rw [show (∑ r : Fin 512, f r) = ∑ r : Fin (8 * 64), f r from rfl, ← e, Fintype.sum_prod_type]
  refine Finset.sum_congr rfl fun c _ => Finset.sum_congr rfl fun j _ => congrArg f (Fin.ext ?_)
  show j.val + 64 * c.val = 64 * c.val + j.val
  omega

/-- The same sum as an accumulation from zero of the eight runs, in order. -/
theorem sum_512_chunks {M : Type*} [AddCommMonoid M] (f : Fin 512 → M) :
    ∑ r : Fin 512, f r =
      0 + (∑ j : Fin 64, f ⟨0 + j.val, by omega⟩) + (∑ j : Fin 64, f ⟨64 + j.val, by omega⟩)
        + (∑ j : Fin 64, f ⟨128 + j.val, by omega⟩) + (∑ j : Fin 64, f ⟨192 + j.val, by omega⟩)
        + (∑ j : Fin 64, f ⟨256 + j.val, by omega⟩) + (∑ j : Fin 64, f ⟨320 + j.val, by omega⟩)
        + (∑ j : Fin 64, f ⟨384 + j.val, by omega⟩) + (∑ j : Fin 64, f ⟨448 + j.val, by omega⟩) := by
  rw [sum_512_eq_8x64, Fin.sum_univ_eight, zero_add]
  rfl

end Cert.LibLayout
-- ==== Proof.LibHostDot.lean ====
/-
  The host's matrix products read entry by entry on the extended reals: rows against rows (A · Bᵀ) and rows against
  columns (A · B), each entry the sum over the contracted index of the operands' products.
-/
import Idealize.ShloMosaic.Lib.Pipeline.Value
import Idealize.ShloMosaic.Lib.ValueIdx
import Idealize.ShloMosaic.PureOps.Ideal.Laws

namespace Cert.LibHostDot

open Idealize.ShloMosaic Idealize.ShloMosaic.ValueIdx

/-- The host's product of rows with rows: entry `(p, q)` is the sum over `k` of `A[p, k] · B[q, k]`. The record's facts
    (one contracted axis of extent `K`; the free axes' coordinates) are hypotheses, closed at a literal record by `rfl`
    and by unfolding the index functions. -/
theorem dotGeneral_rows_rows_apply {M K N : ℕ} {φ₁ φ₂ : FTy} (d : DotDims ⟨2, ![M, K]⟩ ⟨2, ![N, K]⟩ ⟨2, ![M, N]⟩)
    (hr : d.contr.rank = 1) (hs : d.contr.size ⟨0, by omega⟩ = K)
    (hlc : d.lhsContracting = [1]) (hrc : d.rhsContracting = [1])
    (hl0 : ∀ j k, (d.lhsIdx j k 0).val = (j 0).val) (hr0 : ∀ j k, (d.rhsIdx j k 0).val = (j 1).val)
    (prec : Option ContractPrecision) (lhs : FVec Ideal ⟨2, ![M, K]⟩ φ₁) (rhs : FVec Ideal ⟨2, ![N, K]⟩ φ₂) (p : Fin M) (q : Fin N) :
    Host.dotGeneral d prec lhs rhs (ix2 p q) = ∑ k : Fin K, lhs (ix2 p k) * rhs (ix2 q k) := by
  simp only [Host.dotGeneral]
  rw [Ideal.dotGeneral_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (d.lhsIdx_val_of_single hlc _ _).trans hk)
  have er : d.rhsIdx (ix2 p q) ((contrEquiv1 d K hr hs).symm k) = ix2 q k := funext fun a => Fin.ext (by
    match a with
    | ⟨0, _⟩ => exact hr0 _ _
    | ⟨1, _⟩ => exact (d.rhsIdx_val_of_single hrc _ _).trans hk)
  rw [el, er]

/-- The host's product of rows with columns: entry `(p, q)` is the sum over `k` of `A[p, k] · B[k, q]`. -/
theorem dotGeneral_rows_cols_apply {M K N : ℕ} {φ₁ φ₂ : FTy} (d : DotDims ⟨2, ![M, K]⟩ ⟨2, ![K, N]⟩ ⟨2, ![M, N]⟩)
    (hr : d.contr.rank = 1) (hs : d.contr.size ⟨0, by omega⟩ = K)
    (hlc : d.lhsContracting = [1]) (hrc : d.rhsContracting = [0])
    (hl0 : ∀ j k, (d.lhsIdx j k 0).val = (j 0).val) (hr1 : ∀ j k, (d.rhsIdx j k 1).val = (j 1).val)
    (prec : Option ContractPrecision) (lhs : FVec Ideal ⟨2, ![M, K]⟩ φ₁) (rhs : FVec Ideal ⟨2, ![K, N]⟩ φ₂) (p : Fin M) (q : Fin N) :
    Host.dotGeneral d prec lhs rhs (ix2 p q) = ∑ k : Fin K, lhs (ix2 p k) * rhs (ix2 k q) := by
  simp only [Host.dotGeneral]
  rw [Ideal.dotGeneral_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (d.lhsIdx_val_of_single hlc _ _).trans hk)
  have er : d.rhsIdx (ix2 p q) ((contrEquiv1 d K hr hs).symm k) = ix2 k q := funext fun a => Fin.ext (by
    match a with
    | ⟨0, _⟩ => exact (d.rhsIdx_val_of_single hrc _ _).trans hk
    | ⟨1, _⟩ => exact hr1 _ _)
  rw [el, er]

end Cert.LibHostDot
-- ==== Proof.LibMatRows.lean ====
/-
  A matrix product computed one block of rows at a time is the whole product.

  Let X be an M × K matrix, W a K × N matrix, and let x0 be m consecutive rows of X (row p of x0 is row P of X).  The
  product of x0 with W accumulated into the zero matrix has, at (p, q), the sum over k of x0[p, k] · W[k, q]; the host's
  whole product X · W has, at (P, q), the sum over k of X[P, k] · W[k, q].  The two sums have equal terms, so a grid of
  row blocks that tiles X writes exactly the whole product.  On the extended reals nothing else is involved: no
  rounding, no order of summation.  All extents are variables; the records' own facts are hypotheses.
-/
import Idealize.ShloMosaic.Lib.Pipeline.Value
import Idealize.ShloMosaic.Lib.ValueIdx
import Idealize.ShloMosaic.PureOps.Ideal.Laws
import proofs.«145729_j24232205484470_2_alg».proof.Proof.LibLayout
import proofs.«145729_j24232205484470_2_alg».proof.Proof.LibHostDot

noncomputable section

namespace Cert.LibMatRows

open Idealize.ShloMosaic Idealize.ShloMosaic.ValueIdx

/-- Entry (p, q) of a block's product into zero is entry (P, q) of the whole host product, when row p of the block is
    row P of the whole left operand and the right operands agree on column q. -/
theorem block_entry {M m K N : ℕ} {φ₁ φ₂ : FTy}
    (dB : DotDims ⟨2, ![m, K]⟩ ⟨2, ![K, N]⟩ ⟨2, ![m, N]⟩) (dW : DotDims ⟨2, ![M, K]⟩ ⟨2, ![K, N]⟩ ⟨2, ![M, N]⟩)
    (hrB : dB.contr.rank = 1) (hsB : dB.contr.size ⟨0, by omega⟩ = K)
    (hlcB : dB.lhsContracting = [1]) (hrcB : dB.rhsContracting = [0])
    (hl0B : ∀ j k, (dB.lhsIdx j k 0).val = (j 0).val) (hr1B : ∀ j k, (dB.rhsIdx j k 1).val = (j 1).val)
    (hrW : dW.contr.rank = 1) (hsW : dW.contr.size ⟨0, by omega⟩ = K)
    (hlcW : dW.lhsContracting = [1]) (hrcW : dW.rhsContracting = [0])
    (hl0W : ∀ j k, (dW.lhsIdx j k 0).val = (j 0).val) (hr1W : ∀ j k, (dW.rhsIdx j k 1).val = (j 1).val)
    (X : FVec Ideal ⟨2, ![M, K]⟩ .f32) (W : FVec Ideal ⟨2, ![K, N]⟩ .f32)
    (x0 : FVec Ideal ⟨2, ![m, K]⟩ φ₁) (w0 : FVec Ideal ⟨2, ![K, N]⟩ φ₂)
    (p : Fin m) (q : Fin N) (P : Fin M)
    (hx : ∀ k : Fin K, x0 (ix2 p k) = X (ix2 P k)) (hw : ∀ k : Fin K, w0 (ix2 k q) = W (ix2 k q)) :
    matmul dB none x0 w0 (constant ⟨2, ![m, N]⟩ .f32 0x00000000#32) (ix2 p q)
      = Host.dotGeneral dW none X W (ix2 P q) := by
  rw [Cert.LibLayout.matmul_rows_cols_apply dB hrB hsB hlcB hrcB hl0B hr1B,
    Cert.LibHostDot.dotGeneral_rows_cols_apply dW hrW hsW hlcW hrcW hl0W hr1W]
  refine Finset.sum_congr rfl fun k _ => ?_
  rw [hx k, hw k]

end Cert.LibMatRows

end
-- ==== Proof.LibCombine.lean ====
/-
  Sums of per-relation contributions and bias rows, rectified: the vector unit's spelling against the host's.

  A bias row r (a 1 × n matrix) broadcast down the rows of a matrix has r[0, q] at entry (p, q), whether it is spelt as a
  trailing-axes broadcast of a block or as a broadcast along named axes of the whole matrix.  The kernel adds three
  contributions and three bias rows from left to right, (((((x0 + y0) + x1) + y1) + x2) + y2); the host adds each
  contribution to its own bias first and then adds the three, ((x0 + y0) + (x1 + y1)) + (x2 + y2).  Addition on the
  extended reals is associative (and commutative), with no finiteness needed, so the two agree entry by entry; the
  maximum against zero is then taken of equal numbers.  A vector reshaped to one row is the same row as the vector given
  a leading unit axis.  All extents are variables.
-/
import Idealize.ShloMosaic.PureOps.Ideal.Laws
import Idealize.ShloMosaic.Lib.ValueIdx
import Idealize.ShloMosaic.Lib.Pipeline.Value

noncomputable section

namespace Cert.LibCombine

open Idealize.ShloMosaic Idealize.ShloMosaic.ValueIdx

/-- A coordinate below an extent is itself, or zero when the extent is one. -/
theorem val_eq_ite {n : Nat} (a : Fin n) : a.val = if n = 1 then 0 else a.val := by
  split
  · have := a.isLt; omega
  · rfl

/-- A row (1 × n) cast to its own shape and broadcast down a rows reads, at (p, q), the row at q. -/
theorem blockRow_apply {α : Type} {a n : Nat} (r : (⟨2, ![1, n]⟩ : Shape).Idx → α)
    (h1 : (⟨2, ![1, n]⟩ : Shape).ShapeCasts ⟨2, ![1, n]⟩) (h2 : (⟨2, ![1, n]⟩ : Shape).Broadcasts ⟨2, ![a, n]⟩)
    (p : Fin a) (q : Fin n) :
    broadcastTo ⟨2, ![a, n]⟩ (shapeCast ⟨2, ![1, n]⟩ r h1) h2 (ix2 p q) = r (ix2 0 q) := by
  rw [shapeCast_self]
  exact broadcastTo_apply _ h2 (ix2 p q) (ix2 0 q) (fun c => by
    match c with
    | ⟨0, _⟩ => show (0 : Nat) = if (1 : Nat) = 1 then 0 else _; rw [if_pos rfl]
    | ⟨1, _⟩ => exact val_eq_ite (n := n) q)

/-- A row (1 × n) broadcast along both axes down A rows reads, at (P, q), the row at q. -/
theorem wholeRow_apply {α : Type} {A n : Nat} (r : (⟨2, ![1, n]⟩ : Shape).Idx → α)
    (h4 : (⟨2, ![1, n]⟩ : Shape).BroadcastsInDim ⟨2, ![A, n]⟩ (![0, 1] : Fin 2 → Fin 2)) (P : Fin A) (q : Fin n) :
    broadcastInDim ⟨2, ![A, n]⟩ ![0, 1] h4 r (ix2 P q) = r (ix2 0 q) :=
  broadcastInDim_apply _ h4 _ (ix2 P q) (ix2 0 q) (fun c => by
    match c with
    | ⟨0, _⟩ => show (0 : Nat) = if (1 : Nat) = 1 then 0 else _; rw [if_pos rfl]
    | ⟨1, _⟩ => exact val_eq_ite (n := n) q)

/-- A vector of length n reshaped to one row is the vector given a leading unit axis. -/
theorem reshapeRow_eq {α : Type} {n : Nat} (b : (⟨1, ![n]⟩ : Shape).Idx → α)
    (h0 : (⟨1, ![n]⟩ : Shape).ShapeCasts ⟨2, ![1, n]⟩)
    (h3 : (⟨1, ![n]⟩ : Shape).BroadcastsInDim ⟨2, ![1, n]⟩ (![1] : Fin 1 → Fin 2)) :
    shapeCast ⟨2, ![1, n]⟩ b h0 = broadcastInDim ⟨2, ![1, n]⟩ ![1] h3 b := by
  funext i
  obtain ⟨z, q, rfl⟩ : ∃ (z : Fin 1) (q : Fin n), i = ix2 z q := ⟨i 0, i 1, eq_ix2 i⟩
  rw [broadcastInDim_apply _ h3 b (ix2 z q) (ix1 q) (fun c => by
    match c with
    | ⟨0, _⟩ => exact val_eq_ite (n := n) q)]
  refine shapeCast_apply b h0 (ix2 z q) (ix1 q) ?_
  rw [Shape.rowMajor_val_one, Shape.rowMajor_val_two]
  have hz : z.val = 0 := by have := z.isLt; omega
  show q.val = z.val * n + q.val
  rw [hz]; omega

/-- THREE CONTRIBUTIONS WITH THEIR BIAS ROWS, RECTIFIED, at one entry: the kernel's left-to-right sum over a block is the
    host's grouped sum over the whole matrix, when the block's entry (p, q) is the whole's entry (P, q) and the block's bias
    rows are the whole bias rows at column q. -/
theorem combine3_entry {a A n : Nat} (a0 a1 a2 : FVec Ideal ⟨2, ![a, n]⟩ .f32) (r0 r1 r2 : FVec Ideal ⟨2, ![1, n]⟩ .f32)
    (A0 A1 A2 : FVec Ideal ⟨2, ![A, n]⟩ .f32) (R0 R1 R2 : FVec Ideal ⟨2, ![1, n]⟩ .f32)
    (h1 : (⟨2, ![1, n]⟩ : Shape).ShapeCasts ⟨2, ![1, n]⟩) (h2 : (⟨2, ![1, n]⟩ : Shape).Broadcasts ⟨2, ![a, n]⟩)
    (h4 : (⟨2, ![1, n]⟩ : Shape).BroadcastsInDim ⟨2, ![A, n]⟩ (![0, 1] : Fin 2 → Fin 2))
    (h5 : (⟨0, ![]⟩ : Shape).BroadcastsInDim ⟨2, ![A, n]⟩ (![] : Fin 0 → Fin 2))
    (p : Fin a) (q : Fin n) (P : Fin A)
    (e0 : a0 (ix2 p q) = A0 (ix2 P q)) (e1 : a1 (ix2 p q) = A1 (ix2 P q)) (e2 : a2 (ix2 p q) = A2 (ix2 P q))
    (f0 : r0 (ix2 0 q) = R0 (ix2 0 q)) (f1 : r1 (ix2 0 q) = R1 (ix2 0 q)) (f2 : r2 (ix2 0 q) = R2 (ix2 0 q)) :
    maximumf (addf (addf (addf (addf (addf a0
        (broadcastTo ⟨2, ![a, n]⟩ (shapeCast ⟨2, ![1, n]⟩ r0 h1) h2)) a1)
        (broadcastTo ⟨2, ![a, n]⟩ (shapeCast ⟨2, ![1, n]⟩ r1 h1) h2)) a2)
        (broadcastTo ⟨2, ![a, n]⟩ (shapeCast ⟨2, ![1, n]⟩ r2 h1) h2))
        (broadcast ⟨2, ![a, n]⟩ (Scalar.ofBits (F := Ideal) .f32 0x00000000#32)) (ix2 p q)
      = maximumf (addf (addf (addf A0 (broadcastInDim ⟨2, ![A, n]⟩ ![0, 1] h4 R0))
          (addf A1 (broadcastInDim ⟨2, ![A, n]⟩ ![0, 1] h4 R1)))
          (addf A2 (broadcastInDim ⟨2, ![A, n]⟩ ![0, 1] h4 R2)))
          (broadcastInDim ⟨2, ![A, n]⟩ ![] h5 (constant (F := Ideal) ⟨0, ![]⟩ .f32 0x00000000#32)) (ix2 P q) := by
  simp only [maximumf, addf]
  refine congrArg₂ FloatOps.maximumf ?_ rfl
  rw [blockRow_apply r0 h1 h2 p q, blockRow_apply r1 h1 h2 p q, blockRow_apply r2 h1 h2 p q,
    wholeRow_apply R0 h4 P q, wholeRow_apply R1 h4 P q, wholeRow_apply R2 h4 P q, e0, e1, e2, f0, f1, f2]
  simp only [Ideal.addf_def, add_assoc]

/-- ONE CONTRIBUTION WITH ITS BIAS ROW, RECTIFIED, at one entry. -/
theorem combine1_entry {a A n : Nat} (a0 : FVec Ideal ⟨2, ![a, n]⟩ .f32) (r0 : FVec Ideal ⟨2, ![1, n]⟩ .f32)
    (A0 : FVec Ideal ⟨2, ![A, n]⟩ .f32) (R0 : FVec Ideal ⟨2, ![1, n]⟩ .f32)
    (h1 : (⟨2, ![1, n]⟩ : Shape).ShapeCasts ⟨2, ![1, n]⟩) (h2 : (⟨2, ![1, n]⟩ : Shape).Broadcasts ⟨2, ![a, n]⟩)
    (h4 : (⟨2, ![1, n]⟩ : Shape).BroadcastsInDim ⟨2, ![A, n]⟩ (![0, 1] : Fin 2 → Fin 2))
    (h5 : (⟨0, ![]⟩ : Shape).BroadcastsInDim ⟨2, ![A, n]⟩ (![] : Fin 0 → Fin 2))
    (p : Fin a) (q : Fin n) (P : Fin A) (e0 : a0 (ix2 p q) = A0 (ix2 P q)) (f0 : r0 (ix2 0 q) = R0 (ix2 0 q)) :
    maximumf (addf a0 (broadcastTo ⟨2, ![a, n]⟩ (shapeCast ⟨2, ![1, n]⟩ r0 h1) h2))
        (broadcast ⟨2, ![a, n]⟩ (Scalar.ofBits (F := Ideal) .f32 0x00000000#32)) (ix2 p q)
      = maximumf (addf A0 (broadcastInDim ⟨2, ![A, n]⟩ ![0, 1] h4 R0))
          (broadcastInDim ⟨2, ![A, n]⟩ ![] h5 (constant (F := Ideal) ⟨0, ![]⟩ .f32 0x00000000#32)) (ix2 P q) := by
  simp only [maximumf, addf]
  refine congrArg₂ FloatOps.maximumf ?_ rfl
  rw [blockRow_apply r0 h1 h2 p q, wholeRow_apply R0 h4 P q, e0, f0]

end Cert.LibCombine

end
-- ==== Proof.LibScaledRows.lean ====
/-
  The dense parts of a degree-normalised graph convolution, one block of rows at a time, on the extended reals.

  A layer multiplies every row P of a matrix X by a per-row factor n[P] (a column), and then either takes the product
  with a weight matrix W, or adds a bias row.  Computed on a block of consecutive rows (row p of the block being row P of
  the whole), every entry is the same arithmetic expression of the same numbers as in the whole matrix:
    * (x0 ⊙ n0) · W at (p, q) is the sum over k of (x0[p, k] · n0[p]) · W[k, q], the whole product's entry (P, q);
    * a ⊙ n + r at (p, q) is a[p, q] · n[p] + r[q];
    * max(a ⊙ nd + r, 0) ⊙ ns, then the product with W, likewise.
  Only the readings of the layout operations are used (a column repeated along the rows' entries, a row repeated down the
  rows), never a law of arithmetic: the two sides are literally the same sums of the same products.  A change of float
  format is the identity on the extended reals.  A vector reshaped to a column is the vector given a trailing unit axis.
  All extents are variables; the product records' own facts are hypotheses.
-/
import Idealize.ShloMosaic.Lib.Pipeline.Value
import Idealize.ShloMosaic.Lib.ValueIdx
import Idealize.ShloMosaic.PureOps.Ideal.Laws
import proofs.«145729_j24232205484470_2_alg».proof.Proof.LibLayout
import proofs.«145729_j24232205484470_2_alg».proof.Proof.LibHostDot
import proofs.«145729_j24232205484470_2_alg».proof.Proof.LibMatRows
import proofs.«145729_j24232205484470_2_alg».proof.Proof.LibCombine

noncomputable section

namespace Cert.LibScaledRows

open Idealize.ShloMosaic Idealize.ShloMosaic.ValueIdx

/-- A column (A × 1) broadcast along both axes to A × n reads, at (P, q), the column's entry of row P. -/
theorem wholeCol_apply {α : Type} {A n : Nat} (c : (⟨2, ![A, 1]⟩ : Shape).Idx → α)
    (h : (⟨2, ![A, 1]⟩ : Shape).BroadcastsInDim ⟨2, ![A, n]⟩ (![0, 1] : Fin 2 → Fin 2)) (P : Fin A) (q : Fin n) :
    broadcastInDim ⟨2, ![A, n]⟩ ![0, 1] h c (ix2 P q) = c (ix2 P (0 : Fin 1)) :=
  broadcastInDim_apply _ h _ (ix2 P q) (ix2 P (0 : Fin 1)) (fun ax => by
    match ax with
    | ⟨0, _⟩ => exact Cert.LibCombine.val_eq_ite (n := A) P
    | ⟨1, _⟩ => show (0 : Nat) = if (1 : Nat) = 1 then 0 else _; rw [if_pos rfl])

/-- A block column (a × 1) cast to its own shape and repeated along the entries of the rows reads, at (p, q), the
    column's entry of row p. -/
theorem blockCol_apply {α : Type} {a n : Nat} (c : (⟨2, ![a, 1]⟩ : Shape).Idx → α)
    (h1 : (⟨2, ![a, 1]⟩ : Shape).ShapeCasts ⟨2, ![a, 1]⟩) (h2 : (⟨2, ![a, 1]⟩ : Shape).Broadcasts ⟨2, ![a, n]⟩)
    (p : Fin a) (q : Fin n) :
    broadcastTo ⟨2, ![a, n]⟩ (shapeCast ⟨2, ![a, 1]⟩ c h1) h2 (ix2 p q) = c (ix2 p (0 : Fin 1)) := by
  rw [shapeCast_self]
  exact Cert.LibLayout.broadcastTo_a1_ab_apply c h2 p q

/-- A vector of length a reshaped to a column is the vector given a trailing unit axis. -/
theorem reshapeCol_eq {α : Type} {a : Nat} (v : (⟨1, ![a]⟩ : Shape).Idx → α)
    (h0 : (⟨1, ![a]⟩ : Shape).ShapeCasts ⟨2, ![a, 1]⟩)
    (h3 : (⟨1, ![a]⟩ : Shape).BroadcastsInDim ⟨2, ![a, 1]⟩ (![0] : Fin 1 → Fin 2)) :
    shapeCast ⟨2, ![a, 1]⟩ v h0 = broadcastInDim ⟨2, ![a, 1]⟩ ![0] h3 v := by
  funext i
  obtain ⟨p, u, rfl⟩ : ∃ (p : Fin a) (u : Fin 1), i = ix2 p u := ⟨i 0, i 1, eq_ix2 i⟩
  rw [broadcastInDim_apply _ h3 v (ix2 p u) (ix1 p) (fun c => by
    match c with
    | ⟨0, _⟩ => exact Cert.LibCombine.val_eq_ite (n := a) p)]
  exact Cert.LibLayout.shapeCast_a_a1_apply v h0 p u

/-- A PRODUCT OF A NARROWED BLOCK: entry (p, q) of the block's y0 · w0 accumulated into zero, y0 first changed to the
    narrower float format (the identity on the extended reals), is entry (P, q) of the whole host product X · W, when
    row p of y0 is row P of X and the right operands agree on column q. -/
theorem truncated_block_entry {M m K N : ℕ} {φ₂ : FTy}
    (dB : DotDims ⟨2, ![m, K]⟩ ⟨2, ![K, N]⟩ ⟨2, ![m, N]⟩) (dW : DotDims ⟨2, ![M, K]⟩ ⟨2, ![K, N]⟩ ⟨2, ![M, N]⟩)
    (hrB : dB.contr.rank = 1) (hsB : dB.contr.size ⟨0, by omega⟩ = K)
    (hlcB : dB.lhsContracting = [1]) (hrcB : dB.rhsContracting = [0])
    (hl0B : ∀ j k, (dB.lhsIdx j k 0).val = (j 0).val) (hr1B : ∀ j k, (dB.rhsIdx j k 1).val = (j 1).val)
    (hrW : dW.contr.rank = 1) (hsW : dW.contr.size ⟨0, by omega⟩ = K)
    (hlcW : dW.lhsContracting = [1]) (hrcW : dW.rhsContracting = [0])
    (hl0W : ∀ j k, (dW.lhsIdx j k 0).val = (j 0).val) (hr1W : ∀ j k, (dW.rhsIdx j k 1).val = (j 1).val)
    (X : FVec Ideal ⟨2, ![M, K]⟩ .f32) (W : FVec Ideal ⟨2, ![K, N]⟩ .f32)
    (y0 : FVec Ideal ⟨2, ![m, K]⟩ .f32) (w0 : FVec Ideal ⟨2, ![K, N]⟩ φ₂)
    (hb : FTy.bf16.bits < FTy.f32.bits) (hw1 : (⟨2, ![K, N]⟩ : Shape).ShapeCasts ⟨2, ![K, N]⟩)
    (p : Fin m) (q : Fin N) (P : Fin M)
    (hx : ∀ k : Fin K, y0 (ix2 p k) = X (ix2 P k)) (hw : ∀ k : Fin K, w0 (ix2 k q) = W (ix2 k q)) :
    matmul dB none (truncf .bf16 y0 hb) (shapeCast ⟨2, ![K, N]⟩ w0 hw1) (constant ⟨2, ![m, N]⟩ .f32 0x00000000#32) (ix2 p q)
      = Host.dotGeneral dW none X W (ix2 P q) := by
  rw [shapeCast_self w0]
  have key := Cert.LibMatRows.block_entry (M := M) (m := m) (K := K) (N := N) (φ₁ := .bf16) (φ₂ := φ₂)
    dB dW hrB hsB hlcB hrcB hl0B hr1B hrW hsW hlcW hrcW hl0W hr1W X W (truncf .bf16 y0 hb) w0 p q P
    (fun k => (truncf_apply y0 hb (ix2 p k)).trans (hx k)) hw
  exact key

/-- ROWS SCALED, THEN A PRODUCT: entry (p, q) of the block's (x0 ⊙ n0) · w0 accumulated into zero is entry (P, q) of the
    whole host product (X ⊙ n) · W, when row p of the block operands is row P of the whole ones and the right operands
    agree on column q. -/
theorem scaled_block_entry {M m K N : ℕ} {φ₂ : FTy}
    (dB : DotDims ⟨2, ![m, K]⟩ ⟨2, ![K, N]⟩ ⟨2, ![m, N]⟩) (dW : DotDims ⟨2, ![M, K]⟩ ⟨2, ![K, N]⟩ ⟨2, ![M, N]⟩)
    (hrB : dB.contr.rank = 1) (hsB : dB.contr.size ⟨0, by omega⟩ = K)
    (hlcB : dB.lhsContracting = [1]) (hrcB : dB.rhsContracting = [0])
    (hl0B : ∀ j k, (dB.lhsIdx j k 0).val = (j 0).val) (hr1B : ∀ j k, (dB.rhsIdx j k 1).val = (j 1).val)
    (hrW : dW.contr.rank = 1) (hsW : dW.contr.size ⟨0, by omega⟩ = K)
    (hlcW : dW.lhsContracting = [1]) (hrcW : dW.rhsContracting = [0])
    (hl0W : ∀ j k, (dW.lhsIdx j k 0).val = (j 0).val) (hr1W : ∀ j k, (dW.rhsIdx j k 1).val = (j 1).val)
    (X : FVec Ideal ⟨2, ![M, K]⟩ .f32) (n : FVec Ideal ⟨2, ![M, 1]⟩ .f32) (W : FVec Ideal ⟨2, ![K, N]⟩ .f32)
    (x0 : FVec Ideal ⟨2, ![m, K]⟩ .f32) (n0 : FVec Ideal ⟨2, ![m, 1]⟩ .f32) (w0 : FVec Ideal ⟨2, ![K, N]⟩ φ₂)
    (h1 : (⟨2, ![m, 1]⟩ : Shape).ShapeCasts ⟨2, ![m, 1]⟩) (h2 : (⟨2, ![m, 1]⟩ : Shape).Broadcasts ⟨2, ![m, K]⟩)
    (hb : FTy.bf16.bits < FTy.f32.bits) (hw1 : (⟨2, ![K, N]⟩ : Shape).ShapeCasts ⟨2, ![K, N]⟩)
    (h4 : (⟨2, ![M, 1]⟩ : Shape).BroadcastsInDim ⟨2, ![M, K]⟩ (![0, 1] : Fin 2 → Fin 2))
    (p : Fin m) (q : Fin N) (P : Fin M)
    (hx : ∀ k : Fin K, x0 (ix2 p k) = X (ix2 P k)) (hn : n0 (ix2 p (0 : Fin 1)) = n (ix2 P (0 : Fin 1)))
    (hw : ∀ k : Fin K, w0 (ix2 k q) = W (ix2 k q)) :
    matmul dB none (truncf .bf16 (mulf x0 (broadcastTo ⟨2, ![m, K]⟩ (shapeCast ⟨2, ![m, 1]⟩ n0 h1) h2)) hb)
        (shapeCast ⟨2, ![K, N]⟩ w0 hw1) (constant ⟨2, ![m, N]⟩ .f32 0x00000000#32) (ix2 p q)
      = Host.dotGeneral dW none (mulf X (broadcastInDim ⟨2, ![M, K]⟩ ![0, 1] h4 n)) W (ix2 P q) := by
  exact truncated_block_entry dB dW hrB hsB hlcB hrcB hl0B hr1B hrW hsW hlcW hrcW hl0W hr1W _ W _ w0 hb hw1 p q P
    (fun k => by rw [mulf_apply, mulf_apply, blockCol_apply n0 h1 h2 p k, wholeCol_apply n h4 P k, hx k, hn]) hw

/-- ROWS SCALED, A BIAS ROW ADDED: entry (p, q) of the block's a0 ⊙ n0 + r0 is entry (P, q) of the whole A ⊙ n + R. -/
theorem affine_entry {a A N : ℕ}
    (a0 : FVec Ideal ⟨2, ![a, N]⟩ .f32) (n0 : FVec Ideal ⟨2, ![a, 1]⟩ .f32) (r0 : FVec Ideal ⟨2, ![1, N]⟩ .f32)
    (A0 : FVec Ideal ⟨2, ![A, N]⟩ .f32) (n : FVec Ideal ⟨2, ![A, 1]⟩ .f32) (R : FVec Ideal ⟨2, ![1, N]⟩ .f32)
    (h0 : (⟨2, ![a, N]⟩ : Shape).ShapeCasts ⟨2, ![a, N]⟩)
    (h1 : (⟨2, ![a, 1]⟩ : Shape).ShapeCasts ⟨2, ![a, 1]⟩) (h2 : (⟨2, ![a, 1]⟩ : Shape).Broadcasts ⟨2, ![a, N]⟩)
    (h5 : (⟨2, ![1, N]⟩ : Shape).ShapeCasts ⟨2, ![1, N]⟩) (h6 : (⟨2, ![1, N]⟩ : Shape).Broadcasts ⟨2, ![a, N]⟩)
    (h4 : (⟨2, ![A, 1]⟩ : Shape).BroadcastsInDim ⟨2, ![A, N]⟩ (![0, 1] : Fin 2 → Fin 2))
    (h7 : (⟨2, ![1, N]⟩ : Shape).BroadcastsInDim ⟨2, ![A, N]⟩ (![0, 1] : Fin 2 → Fin 2))
    (p : Fin a) (q : Fin N) (P : Fin A)
    (ha : a0 (ix2 p q) = A0 (ix2 P q)) (hn : n0 (ix2 p (0 : Fin 1)) = n (ix2 P (0 : Fin 1)))
    (hr : r0 (ix2 0 q) = R (ix2 0 q)) :
    addf (mulf (shapeCast ⟨2, ![a, N]⟩ a0 h0) (broadcastTo ⟨2, ![a, N]⟩ (shapeCast ⟨2, ![a, 1]⟩ n0 h1) h2))
        (broadcastTo ⟨2, ![a, N]⟩ (shapeCast ⟨2, ![1, N]⟩ r0 h5) h6) (ix2 p q)
      = addf (mulf A0 (broadcastInDim ⟨2, ![A, N]⟩ ![0, 1] h4 n)) (broadcastInDim ⟨2, ![A, N]⟩ ![0, 1] h7 R) (ix2 P q) := by
  rw [shapeCast_self a0]
  rw [addf_apply, addf_apply, mulf_apply, mulf_apply, blockCol_apply, Cert.LibCombine.blockRow_apply, wholeCol_apply,
    Cert.LibCombine.wholeRow_apply, ha, hn, hr]

/-- ROWS SCALED, A BIAS ROW ADDED, RECTIFIED, SCALED AGAIN: entry (p, k) of the block's max(a0 ⊙ nd0 + r0, 0) ⊙ ns0 is
    entry (P, k) of the whole max(A ⊙ nd + R, 0) ⊙ ns. -/
theorem rectified_entry {a A N : ℕ}
    (a0 : FVec Ideal ⟨2, ![a, N]⟩ .f32) (nd0 ns0 : FVec Ideal ⟨2, ![a, 1]⟩ .f32) (r0 : FVec Ideal ⟨2, ![1, N]⟩ .f32)
    (A0 : FVec Ideal ⟨2, ![A, N]⟩ .f32) (nd ns : FVec Ideal ⟨2, ![A, 1]⟩ .f32) (R : FVec Ideal ⟨2, ![1, N]⟩ .f32)
    (h0 : (⟨2, ![a, N]⟩ : Shape).ShapeCasts ⟨2, ![a, N]⟩)
    (h1 : (⟨2, ![a, 1]⟩ : Shape).ShapeCasts ⟨2, ![a, 1]⟩) (h2 : (⟨2, ![a, 1]⟩ : Shape).Broadcasts ⟨2, ![a, N]⟩)
    (h5 : (⟨2, ![1, N]⟩ : Shape).ShapeCasts ⟨2, ![1, N]⟩) (h6 : (⟨2, ![1, N]⟩ : Shape).Broadcasts ⟨2, ![a, N]⟩)
    (h4 : (⟨2, ![A, 1]⟩ : Shape).BroadcastsInDim ⟨2, ![A, N]⟩ (![0, 1] : Fin 2 → Fin 2))
    (h7 : (⟨2, ![1, N]⟩ : Shape).BroadcastsInDim ⟨2, ![A, N]⟩ (![0, 1] : Fin 2 → Fin 2))
    (h8 : (⟨0, ![]⟩ : Shape).BroadcastsInDim ⟨2, ![A, N]⟩ (![] : Fin 0 → Fin 2))
    (p : Fin a) (k : Fin N) (P : Fin A)
    (ha : a0 (ix2 p k) = A0 (ix2 P k)) (hnd : nd0 (ix2 p (0 : Fin 1)) = nd (ix2 P (0 : Fin 1)))
    (hns : ns0 (ix2 p (0 : Fin 1)) = ns (ix2 P (0 : Fin 1))) (hr : r0 (ix2 0 k) = R (ix2 0 k)) :
    mulf (maximumf (addf (mulf (shapeCast ⟨2, ![a, N]⟩ a0 h0)
            (broadcastTo ⟨2, ![a, N]⟩ (shapeCast ⟨2, ![a, 1]⟩ nd0 h1) h2))
          (broadcastTo ⟨2, ![a, N]⟩ (shapeCast ⟨2, ![1, N]⟩ r0 h5) h6))
        (broadcast ⟨2, ![a, N]⟩ (Scalar.ofBits (F := Ideal) .f32 0x00000000#32)))
      (broadcastTo ⟨2, ![a, N]⟩ (shapeCast ⟨2, ![a, 1]⟩ ns0 h1) h2) (ix2 p k)
      = mulf (maximumf (addf (mulf A0 (broadcastInDim ⟨2, ![A, N]⟩ ![0, 1] h4 nd))
            (broadcastInDim ⟨2, ![A, N]⟩ ![0, 1] h7 R))
          (broadcastInDim ⟨2, ![A, N]⟩ ![] h8 (constant (F := Ideal) ⟨0, ![]⟩ .f32 0x00000000#32)))
        (broadcastInDim ⟨2, ![A, N]⟩ ![0, 1] h4 ns) (ix2 P k) := by
  rw [mulf_apply, mulf_apply, maximumf_apply, maximumf_apply,
    affine_entry a0 nd0 r0 A0 nd R h0 h1 h2 h5 h6 h4 h7 p k P ha hnd hr, blockCol_apply, wholeCol_apply, hns]
  rfl

/-- ROWS SCALED, A BIAS ROW ADDED, RECTIFIED, SCALED AGAIN, THEN A PRODUCT: entry (p, q) of the block's
    (max(a0 ⊙ nd0 + r0, 0) ⊙ ns0) · w0 accumulated into zero is entry (P, q) of the whole host product
    (max(A ⊙ nd + R, 0) ⊙ ns) · W, when row p of the block operands is row P of the whole ones, the bias rows agree and the
    right operands agree on column q. -/
theorem rectified_block_entry {M m K N : ℕ} {φ₂ : FTy}
    (dB : DotDims ⟨2, ![m, K]⟩ ⟨2, ![K, N]⟩ ⟨2, ![m, N]⟩) (dW : DotDims ⟨2, ![M, K]⟩ ⟨2, ![K, N]⟩ ⟨2, ![M, N]⟩)
    (hrB : dB.contr.rank = 1) (hsB : dB.contr.size ⟨0, by omega⟩ = K)
    (hlcB : dB.lhsContracting = [1]) (hrcB : dB.rhsContracting = [0])
    (hl0B : ∀ j k, (dB.lhsIdx j k 0).val = (j 0).val) (hr1B : ∀ j k, (dB.rhsIdx j k 1).val = (j 1).val)
    (hrW : dW.contr.rank = 1) (hsW : dW.contr.size ⟨0, by omega⟩ = K)
    (hlcW : dW.lhsContracting = [1]) (hrcW : dW.rhsContracting = [0])
    (hl0W : ∀ j k, (dW.lhsIdx j k 0).val = (j 0).val) (hr1W : ∀ j k, (dW.rhsIdx j k 1).val = (j 1).val)
    (A0 : FVec Ideal ⟨2, ![M, K]⟩ .f32) (nd ns : FVec Ideal ⟨2, ![M, 1]⟩ .f32) (R : FVec Ideal ⟨2, ![1, K]⟩ .f32)
    (W : FVec Ideal ⟨2, ![K, N]⟩ .f32)
    (a0 : FVec Ideal ⟨2, ![m, K]⟩ .f32) (nd0 ns0 : FVec Ideal ⟨2, ![m, 1]⟩ .f32) (r0 : FVec Ideal ⟨2, ![1, K]⟩ .f32)
    (w0 : FVec Ideal ⟨2, ![K, N]⟩ φ₂)
    (h0 : (⟨2, ![m, K]⟩ : Shape).ShapeCasts ⟨2, ![m, K]⟩)
    (h1 : (⟨2, ![m, 1]⟩ : Shape).ShapeCasts ⟨2, ![m, 1]⟩) (h2 : (⟨2, ![m, 1]⟩ : Shape).Broadcasts ⟨2, ![m, K]⟩)
    (h5 : (⟨2, ![1, K]⟩ : Shape).ShapeCasts ⟨2, ![1, K]⟩) (h6 : (⟨2, ![1, K]⟩ : Shape).Broadcasts ⟨2, ![m, K]⟩)
    (hb : FTy.bf16.bits < FTy.f32.bits) (hw1 : (⟨2, ![K, N]⟩ : Shape).ShapeCasts ⟨2, ![K, N]⟩)
    (h4 : (⟨2, ![M, 1]⟩ : Shape).BroadcastsInDim ⟨2, ![M, K]⟩ (![0, 1] : Fin 2 → Fin 2))
    (h7 : (⟨2, ![1, K]⟩ : Shape).BroadcastsInDim ⟨2, ![M, K]⟩ (![0, 1] : Fin 2 → Fin 2))
    (h8 : (⟨0, ![]⟩ : Shape).BroadcastsInDim ⟨2, ![M, K]⟩ (![] : Fin 0 → Fin 2))
    (p : Fin m) (q : Fin N) (P : Fin M)
    (ha : ∀ k : Fin K, a0 (ix2 p k) = A0 (ix2 P k)) (hnd : nd0 (ix2 p (0 : Fin 1)) = nd (ix2 P (0 : Fin 1)))
    (hns : ns0 (ix2 p (0 : Fin 1)) = ns (ix2 P (0 : Fin 1))) (hr : ∀ k : Fin K, r0 (ix2 0 k) = R (ix2 0 k))
    (hw : ∀ k : Fin K, w0 (ix2 k q) = W (ix2 k q)) :
    matmul dB none (truncf .bf16 (mulf (maximumf (addf (mulf (shapeCast ⟨2, ![m, K]⟩ a0 h0)
              (broadcastTo ⟨2, ![m, K]⟩ (shapeCast ⟨2, ![m, 1]⟩ nd0 h1) h2))
            (broadcastTo ⟨2, ![m, K]⟩ (shapeCast ⟨2, ![1, K]⟩ r0 h5) h6))
          (broadcast ⟨2, ![m, K]⟩ (Scalar.ofBits (F := Ideal) .f32 0x00000000#32)))
        (broadcastTo ⟨2, ![m, K]⟩ (shapeCast ⟨2, ![m, 1]⟩ ns0 h1) h2)) hb)
        (shapeCast ⟨2, ![K, N]⟩ w0 hw1) (constant ⟨2, ![m, N]⟩ .f32 0x00000000#32) (ix2 p q)
      = Host.dotGeneral dW none (mulf (maximumf (addf (mulf A0 (broadcastInDim ⟨2, ![M, K]⟩ ![0, 1] h4 nd))
              (broadcastInDim ⟨2, ![M, K]⟩ ![0, 1] h7 R))
            (broadcastInDim ⟨2, ![M, K]⟩ ![] h8 (constant (F := Ideal) ⟨0, ![]⟩ .f32 0x00000000#32)))
          (broadcastInDim ⟨2, ![M, K]⟩ ![0, 1] h4 ns)) W (ix2 P q) := by
  exact truncated_block_entry dB dW hrB hsB hlcB hrcB hl0B hr1B hrW hsW hlcW hrcW hl0W hr1W _ W _ w0 hb hw1 p q P
    (fun k => rectified_entry a0 nd0 ns0 r0 A0 nd ns R h0 h1 h2 h5 h6 h4 h7 h8 p k P (ha k) hnd hns (hr k)) hw

end Cert.LibScaledRows

end
-- ==== Proof.Stretches.lean ====
/-
  The host operations between the pallas_calls, read at the buffers the regions take, from arbitrary buffer contents W.

  Before the first region: the degree normalisations ns, nd as columns (a reshape of the vector), and the two weight
  matrices in the narrower float format (the same numbers on the extended reals).  Between the regions: the aggregation
  over the edges (gather the source rows, scatter-add them into the destination rows), and each bias vector as a row.
  A buffer no operation of a stretch writes keeps its contents.  The records of the two printed programs spell the same
  dimension numbers, so the terms are those of the reference's stages.
-/
import proofs.«145729_j24232205484470_2_alg».proof.Proof.Gen.KernelIdeal.Launch
import proofs.«145729_j24232205484470_2_alg».proof.Proof.Spec
import proofs.«145729_j24232205484470_2_alg».proof.Proof.LibScaledRows
import proofs.«145729_j24232205484470_2_alg».proof.Proof.LibCombine
import Idealize.ShloMosaic.Lib.StableHlo.Run
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Stretch

open Cert.KernelIdeal Cert.KernelIdeal.Gen Idealize.ShloMosaic.StableHlo

variable (W : Valuation τ sig (Elt Ideal))

/-! ## Before the first region -/

/-- The column ns: the out-degree normalisation of the source indices. -/
theorem s0_v14 : StableHlo.after hostOps0 W (Proc.devRef .tc main_v14) = Cert.GraphSpec.col (Cert.GraphSpec.degNorm (W (Proc.devRef .tc main_arg1))) := by
  dsimp only [hostOps0]; after_results
  exact Cert.LibScaledRows.reshapeCol_eq _ _ _
/-- The column nd: the in-degree normalisation of the destination indices. -/
theorem s0_v15 : StableHlo.after hostOps0 W (Proc.devRef .tc main_v15) = Cert.GraphSpec.col (Cert.GraphSpec.degNorm (W (Proc.devRef .tc main_arg2))) := by
  dsimp only [hostOps0]; after_results
  exact Cert.LibScaledRows.reshapeCol_eq _ _ _
/-- The first layer's weights in the narrower format are the weights. -/
theorem s0_v16 (i : S1433x128.Idx) : StableHlo.after hostOps0 W (Proc.devRef .tc main_v16) i = W (Proc.devRef .tc main_arg3) i := by
  dsimp only [hostOps0]; after_results
  rfl
/-- The second layer's weights in the narrower format are the weights. -/
theorem s0_v17 (i : S128x7.Idx) : StableHlo.after hostOps0 W (Proc.devRef .tc main_v17) i = W (Proc.devRef .tc main_arg5) i := by
  dsimp only [hostOps0]; after_results
  rfl
theorem s0_keep_arg0 : StableHlo.after hostOps0 W (Proc.devRef .tc main_arg0) = W (Proc.devRef .tc main_arg0) := by
  dsimp only [hostOps0]; after_results
theorem s0_keep_arg1 : StableHlo.after hostOps0 W (Proc.devRef .tc main_arg1) = W (Proc.devRef .tc main_arg1) := by
  dsimp only [hostOps0]; after_results
theorem s0_keep_arg2 : StableHlo.after hostOps0 W (Proc.devRef .tc main_arg2) = W (Proc.devRef .tc main_arg2) := by
  dsimp only [hostOps0]; after_results
theorem s0_keep_arg4 : StableHlo.after hostOps0 W (Proc.devRef .tc main_arg4) = W (Proc.devRef .tc main_arg4) := by
  dsimp only [hostOps0]; after_results
theorem s0_keep_arg6 : StableHlo.after hostOps0 W (Proc.devRef .tc main_arg6) = W (Proc.devRef .tc main_arg6) := by
  dsimp only [hostOps0]; after_results

/-! ## Between the first and the second region -/

/-- Layer 1's aggregation of the first region's result. -/
theorem s1_v28 : StableHlo.after hostOps1 W (Proc.devRef .tc main_v28)
    = Cert.GraphSpec.agg128 (W (Proc.devRef .tc main_v18)) (W (Proc.devRef .tc main_arg1)) (W (Proc.devRef .tc main_arg2)) := by
  dsimp only [hostOps1]; after_results
  rfl
/-- The first bias as a row. -/
theorem s1_v29 : StableHlo.after hostOps1 W (Proc.devRef .tc main_v29) = Cert.GraphSpec.row128 (W (Proc.devRef .tc main_arg4)) := by
  dsimp only [hostOps1]; after_results
  exact Cert.LibCombine.reshapeRow_eq _ _ _
theorem s1_keep_v14 : StableHlo.after hostOps1 W (Proc.devRef .tc main_v14) = W (Proc.devRef .tc main_v14) := by
  dsimp only [hostOps1]; after_results
theorem s1_keep_v15 : StableHlo.after hostOps1 W (Proc.devRef .tc main_v15) = W (Proc.devRef .tc main_v15) := by
  dsimp only [hostOps1]; after_results
theorem s1_keep_v17 : StableHlo.after hostOps1 W (Proc.devRef .tc main_v17) = W (Proc.devRef .tc main_v17) := by
  dsimp only [hostOps1]; after_results
theorem s1_keep_arg1 : StableHlo.after hostOps1 W (Proc.devRef .tc main_arg1) = W (Proc.devRef .tc main_arg1) := by
  dsimp only [hostOps1]; after_results
theorem s1_keep_arg2 : StableHlo.after hostOps1 W (Proc.devRef .tc main_arg2) = W (Proc.devRef .tc main_arg2) := by
  dsimp only [hostOps1]; after_results
theorem s1_keep_arg6 : StableHlo.after hostOps1 W (Proc.devRef .tc main_arg6) = W (Proc.devRef .tc main_arg6) := by
  dsimp only [hostOps1]; after_results

/-! ## Between the second and the third region -/

/-- Layer 2's aggregation of the second region's result. -/
theorem s2_v40 : StableHlo.after hostOps2 W (Proc.devRef .tc main_v40)
    = Cert.GraphSpec.agg7 (W (Proc.devRef .tc main_v30)) (W (Proc.devRef .tc main_arg1)) (W (Proc.devRef .tc main_arg2)) := by
  dsimp only [hostOps2]; after_results
  rfl
/-- The second bias as a row. -/
theorem s2_v41 : StableHlo.after hostOps2 W (Proc.devRef .tc main_v41) = Cert.GraphSpec.row7 (W (Proc.devRef .tc main_arg6)) := by
  dsimp only [hostOps2]; after_results
  exact Cert.LibCombine.reshapeRow_eq _ _ _
theorem s2_keep_v15 : StableHlo.after hostOps2 W (Proc.devRef .tc main_v15) = W (Proc.devRef .tc main_v15) := by
  dsimp only [hostOps2]; after_results

end Cert.KernelIdeal.Stretch

end
-- ==== Proof.Layer1.lean ====
/-
  The first pallas_call: h1 = (features ⊙ ns) · W1, fifty blocks of a thousand rows.

  At grid point t the body reads rows 1000·t … 1000·t + 999 of the features and of the column ns, and the whole of W1, and
  writes the block's product into rows 1000·t … 1000·t + 999 of the result.  Entry (p, q) of that block is the whole
  product's entry (1000·t + p, q): the same sum over k of the same products.  The fifty blocks tile the 50000 rows, so
  the array the region leaves is the whole product.  Everything is stated for arbitrary contents V of the buffers at
  the region's entry.
-/
import proofs.«145729_j24232205484470_2_alg».proof.Proof.Gen.KernelIdeal.Frame
import proofs.«145729_j24232205484470_2_alg».proof.Proof.Gen.ReferenceIdeal.Read
import proofs.«145729_j24232205484470_2_alg».proof.Proof.Spec
import proofs.«145729_j24232205484470_2_alg».proof.Proof.LibScaledRows
import Idealize.ShloMosaic.Lib.Pipeline.Value
import Idealize.ShloMosaic.Lib.ValueIdx
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Layer1

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The block product's free axes: the left operand's row is the result's row, the right operand's column the result's. -/
theorem lhs_row (i : S1000x128.Idx) (q : dot_S1000x1433_S1433x128_S1000x128_1_0_0_1_n_n.contr.Idx) :
    (dot_S1000x1433_S1433x128_S1000x128_1_0_0_1_n_n.lhsIdx i q 0).val = (i 0).val := by
  unfold DotDims.lhsIdx
  rw [dif_neg (show ¬(0 : Fin S1000x1433.rank) ∈ dot_S1000x1433_S1433x128_S1000x128_1_0_0_1_n_n.lhsBatch by decide), dif_pos (show (0 : Fin S1000x1433.rank) ∈ dot_S1000x1433_S1433x128_S1000x128_1_0_0_1_n_n.lhsNonContracting by decide)]
  rfl
theorem rhs_col (i : S1000x128.Idx) (q : dot_S1000x1433_S1433x128_S1000x128_1_0_0_1_n_n.contr.Idx) :
    (dot_S1000x1433_S1433x128_S1000x128_1_0_0_1_n_n.rhsIdx i q 1).val = (i 1).val := by
  unfold DotDims.rhsIdx
  rw [dif_neg (show ¬(1 : Fin S1433x128.rank) ∈ dot_S1000x1433_S1433x128_S1000x128_1_0_0_1_n_n.rhsBatch by decide), dif_pos (show (1 : Fin S1433x128.rank) ∈ dot_S1000x1433_S1433x128_S1000x128_1_0_0_1_n_n.rhsNonContracting by decide)]
  rfl

/-- The body's arithmetic at entry (p, q) of a block is the whole layer's entry (P, q), when row p of the block's
    operands is row P of the whole ones. -/
theorem pay_entry (x0 : Vec Ideal S1000x1433 .f32) (x1 : Vec Ideal S1000x1 .f32) (x2 : Vec Ideal S1433x128 .bf16)
    (X : FVec Ideal Cert.ReferenceIdeal.S50000x1433 .f32) (n : Cert.GraphSpec.NodeCol)
    (W : FVec Ideal Cert.ReferenceIdeal.S1433x128 .f32)
    (p : Fin 1000) (q : Fin 128) (P : Fin 50000)
    (hx : ∀ k : Fin 1433, x0 (ix2 p k) = X (ix2 P k)) (hn : x1 (ix2 p (0 : Fin 1)) = n (ix2 P (0 : Fin 1)))
    (hw : ∀ k : Fin 1433, x2 (ix2 k q) = W (ix2 k q)) :
    k0_pay1 (F := Ideal) x0 x1 x2 (ix2 p q) = Cert.GraphSpec.lin1 X n W (ix2 P q) :=
  Cert.LibScaledRows.scaled_block_entry dot_S1000x1433_S1433x128_S1000x128_1_0_0_1_n_n
    Cert.ReferenceIdeal.dot_S50000x1433_S1433x128_S50000x128_1_0_0_1_n_n rfl rfl rfl rfl lhs_row rhs_col rfl rfl rfl rfl
    Cert.ReferenceIdeal.Read.lhs_main_v17_0 Cert.ReferenceIdeal.Read.rhs_main_v17_1 X n W x0 x1 x2 _ _ _ _ _ p q P hx hn hw

/-- The printed index maps over the grid: the row-blocked windows sit at block (t, 0), the weights at block (0, 0). -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What point t writes back is block t of the whole layer of the arrays as the region finds them. -/
theorem flushed_eq (c : Dev nD) (t : Fin cfg0.N)
    (X : FVec Ideal Cert.ReferenceIdeal.S50000x1433 .f32) (n : Cert.GraphSpec.NodeCol)
    (W : FVec Ideal Cert.ReferenceIdeal.S1433x128 .f32)
    (hX : ∀ i, V c main_arg0 i = X i) (hn : ∀ i, V c main_v14 i = n i) (hW : ∀ i, V c main_v16 i = W i) :
    (dat0 V c).flushed 3 t = ((cfg0.win 3).blk t).view.read (Elt Ideal) (Cert.GraphSpec.lin1 X n W) := by
  show (cfg0.win 3).cut (grid0.coords t) ((dat0 V c).after 3 t) = _
  rw [after0_3]
  unfold out0_3
  rw [View.canon_unit_zero hz]
  simp only [View.ld_unit_zero (S := S1000x1433) hz, View.ld_unit_zero (S := S1000x1) hz, View.ld_unit_zero (S := S1433x128) hz]
  obtain ⟨e00, e01, e10, e11, e20, e21, e30, e31⟩ := idx_facts t
  have hN : t.val < 50 := lt_of_lt_of_eq t.isLt N_0
  funext j
  obtain ⟨p, q, rfl⟩ : ∃ (p : Fin 1000) (q : Fin 128), j = ix2 p q := ⟨j 0, j 1, eq_ix2 j⟩
  have hP : 1000 * t.val + p.val < 50000 := by have := p.isLt; omega
  rw [View.read_apply]
  have hemb : ((cfg0.win 3).blk t).view.emb (ix2 p q) = ix2 (⟨1000 * t.val + p.val, hP⟩ : Fin 50000) q := by
    funext a; apply Fin.ext
    match a with
    | ⟨0, _⟩ => show win0_3.index t (0 : Fin 2) * 1000 + 1 * p.val = 1000 * t.val + p.val; omega
    | ⟨1, _⟩ => show win0_3.index t (1 : Fin 2) * 128 + 1 * q.val = q.val; omega
  rw [hemb]
  refine pay_entry _ _ _ X n W p q ⟨1000 * t.val + p.val, hP⟩ (fun k => ?_) ?_ (fun k => ?_)
  · show V c main_arg0 (((cfg0.win 0).blk t).view.emb (ix2 p k)) = _
    rw [hX]
    refine congrArg X (funext fun a => Fin.ext ?_)
    match a with
    | ⟨0, _⟩ => show win0_0.index t (0 : Fin 2) * 1000 + 1 * p.val = 1000 * t.val + p.val; omega
    | ⟨1, _⟩ => show win0_0.index t (1 : Fin 2) * 1433 + 1 * k.val = k.val; omega
  · show V c main_v14 (((cfg0.win 1).blk t).view.emb (ix2 p (0 : Fin 1))) = _
    rw [hn]
    refine congrArg n (funext fun a => Fin.ext ?_)
    match a with
    | ⟨0, _⟩ => show win0_1.index t (0 : Fin 2) * 1000 + 1 * p.val = 1000 * t.val + p.val; omega
    | ⟨1, _⟩ => show win0_1.index t (1 : Fin 2) * 1 + 1 * 0 = 0; omega
  · show V c main_v16 (((cfg0.win 2).blk t).view.emb (ix2 k q)) = _
    rw [hW]
    refine congrArg W (funext fun a => Fin.ext ?_)
    match a with
    | ⟨0, _⟩ => show win0_2.index t (0 : Fin 2) * 1433 + 1 * k.val = k.val; omega
    | ⟨1, _⟩ => show win0_2.index t (1 : Fin 2) * 128 + 1 * q.val = q.val; omega

/-- An index of the result is in point t's block iff each coordinate is in the block's range. -/
theorem mem_blk (t : Fin cfg0.N) (i : S50000x128.Idx) :
    i ∈ ((cfg0.win 3).blk t).view.set ↔ ∀ a : Fin 2, win0_3.index t a * S1000x128.size a ≤ (i a).val ∧ (i a).val < win0_3.index t a * S1000x128.size a + S1000x128.size a := by
  show i ∈ ((View.whole main_v18).slice (win0_3.rect t)).set ↔ _
  rw [View.set_slice_whole, Rect.mem_set_unit]
  exact Iff.rfl

/-- Every row lies in the block of the point its thousand is. -/
theorem cover (i : S50000x128.Idx) : ∃ t : Fin cfg0.N, (cfg0.win 3).flush t = true ∧ i ∈ ((cfg0.win 3).blk t).view.set := by
  have hi0 : (i 0).val < 50000 := (i 0).isLt
  have hi1 : (i 1).val < 128 := (i 1).isLt
  have ht : (i 0).val / 1000 < cfg0.N := by rw [show cfg0.N = 50 from N_0]; omega
  refine ⟨⟨(i 0).val / 1000, ht⟩, flush0_3 _, ?_⟩
  rw [mem_blk]
  obtain ⟨-, -, -, -, -, -, e30, e31⟩ := idx_facts ⟨(i 0).val / 1000, ht⟩
  intro a
  match a with
  | ⟨0, _⟩ => show win0_3.index ⟨(i 0).val / 1000, ht⟩ (0 : Fin 2) * 1000 ≤ (i 0).val ∧ (i 0).val < win0_3.index ⟨(i 0).val / 1000, ht⟩ (0 : Fin 2) * 1000 + 1000; rw [e30]; show (i 0).val / 1000 * 1000 ≤ _ ∧ _ < (i 0).val / 1000 * 1000 + 1000; omega
  | ⟨1, _⟩ => show win0_3.index ⟨(i 0).val / 1000, ht⟩ (1 : Fin 2) * 128 ≤ (i 1).val ∧ (i 1).val < win0_3.index ⟨(i 0).val / 1000, ht⟩ (1 : Fin 2) * 128 + 128; rw [e31]; omega

/-- THE ARRAY the first region leaves: the whole layer (X ⊙ n) · W of the arrays it found. -/
theorem value (c : Dev nD)
    (X : FVec Ideal Cert.ReferenceIdeal.S50000x1433 .f32) (n : Cert.GraphSpec.NodeCol)
    (W : FVec Ideal Cert.ReferenceIdeal.S1433x128 .f32)
    (hX : ∀ i, V c main_arg0 i = X i) (hn : ∀ i, V c main_v14 i = n i) (hW : ∀ i, V c main_v16 i = W i) :
    (dat0 V c).arrAt 3 cfg0.N = Cert.GraphSpec.lin1 X n W :=
  (dat0 V c).arrAt_eq_of_cover 3 (Cert.GraphSpec.lin1 X n W) (fun t _ => flushed_eq V c t X n W hX hn hW) cover

end Cert.KernelIdeal.Layer1

end
-- ==== Proof.Layer2.lean ====
/-
  The second pallas_call: h2 = (max(agg1 ⊙ nd + b1, 0) ⊙ ns) · W2, twenty-five blocks of two thousand rows.

  At grid point t the body reads rows 2000·t … 2000·t + 1999 of agg1 and of the columns nd and ns, the bias row and W2
  whole, and writes the block's product into the same rows of the result.  Entry (p, q) of the block is the whole
  expression's entry (2000·t + p, q): the same sum over k of the same products of the same rectified numbers.  The blocks
  tile the 50000 rows.  Everything is stated for arbitrary contents V of the buffers at the region's entry.
-/
import proofs.«145729_j24232205484470_2_alg».proof.Proof.Gen.KernelIdeal.Frame
import proofs.«145729_j24232205484470_2_alg».proof.Proof.Gen.ReferenceIdeal.Read
import proofs.«145729_j24232205484470_2_alg».proof.Proof.Spec
import proofs.«145729_j24232205484470_2_alg».proof.Proof.LibScaledRows
import Idealize.ShloMosaic.Lib.Pipeline.Value
import Idealize.ShloMosaic.Lib.ValueIdx
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Layer2

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The block product's free axes: the left operand's row is the result's row, the right operand's column the result's. -/
theorem lhs_row (i : S2000x7.Idx) (q : dot_S2000x128_S128x7_S2000x7_1_0_0_1_n_n.contr.Idx) :
    (dot_S2000x128_S128x7_S2000x7_1_0_0_1_n_n.lhsIdx i q 0).val = (i 0).val := by
  unfold DotDims.lhsIdx
  rw [dif_neg (show ¬(0 : Fin S2000x128.rank) ∈ dot_S2000x128_S128x7_S2000x7_1_0_0_1_n_n.lhsBatch by decide), dif_pos (show (0 : Fin S2000x128.rank) ∈ dot_S2000x128_S128x7_S2000x7_1_0_0_1_n_n.lhsNonContracting by decide)]
  rfl
theorem rhs_col (i : S2000x7.Idx) (q : dot_S2000x128_S128x7_S2000x7_1_0_0_1_n_n.contr.Idx) :
    (dot_S2000x128_S128x7_S2000x7_1_0_0_1_n_n.rhsIdx i q 1).val = (i 1).val := by
  unfold DotDims.rhsIdx
  rw [dif_neg (show ¬(1 : Fin S128x7.rank) ∈ dot_S2000x128_S128x7_S2000x7_1_0_0_1_n_n.rhsBatch by decide), dif_pos (show (1 : Fin S128x7.rank) ∈ dot_S2000x128_S128x7_S2000x7_1_0_0_1_n_n.rhsNonContracting by decide)]
  rfl

/-- The body's arithmetic at entry (p, q) of a block is the whole expression's entry (P, q), when row p of the block's
    operands is row P of the whole ones. -/
theorem pay_entry (x0 : Vec Ideal S2000x128 .f32) (x1 : Vec Ideal S2000x1 .f32) (x2 : Vec Ideal S1x128 .f32)
    (x3 : Vec Ideal S2000x1 .f32) (x4 : Vec Ideal S128x7 .bf16)
    (A : FVec Ideal Cert.ReferenceIdeal.S50000x128 .f32) (nd : Cert.GraphSpec.NodeCol)
    (R : FVec Ideal Cert.ReferenceIdeal.S1x128 .f32) (ns : Cert.GraphSpec.NodeCol)
    (W : FVec Ideal Cert.ReferenceIdeal.S128x7 .f32)
    (p : Fin 2000) (q : Fin 7) (P : Fin 50000)
    (ha : ∀ k : Fin 128, x0 (ix2 p k) = A (ix2 P k)) (hnd : x1 (ix2 p (0 : Fin 1)) = nd (ix2 P (0 : Fin 1)))
    (hr : ∀ k : Fin 128, x2 (ix2 0 k) = R (ix2 0 k)) (hns : x3 (ix2 p (0 : Fin 1)) = ns (ix2 P (0 : Fin 1)))
    (hw : ∀ k : Fin 128, x4 (ix2 k q) = W (ix2 k q)) :
    k1_pay1 (F := Ideal) x0 x1 x2 x3 x4 (ix2 p q) = Cert.GraphSpec.lin2 A nd R ns W (ix2 P q) :=
  Cert.LibScaledRows.rectified_block_entry dot_S2000x128_S128x7_S2000x7_1_0_0_1_n_n
    Cert.ReferenceIdeal.dot_S50000x128_S128x7_S50000x7_1_0_0_1_n_n rfl rfl rfl rfl lhs_row rhs_col rfl rfl rfl rfl
    Cert.ReferenceIdeal.Read.lhs_main_v38_0 Cert.ReferenceIdeal.Read.rhs_main_v38_1 A nd ns R W x0 x1 x3 x2 x4
    _ _ _ _ _ _ _ _ _ _ p q P ha hnd hns hr hw

/-- The printed index maps over the grid: the row-blocked windows sit at block (t, 0), the bias row and the weights at
    block (0, 0). -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- What point t writes back is block t of the whole expression of the arrays as the region finds them. -/
theorem flushed_eq (c : Dev nD) (t : Fin cfg1.N)
    (A : FVec Ideal Cert.ReferenceIdeal.S50000x128 .f32) (nd : Cert.GraphSpec.NodeCol)
    (R : FVec Ideal Cert.ReferenceIdeal.S1x128 .f32) (ns : Cert.GraphSpec.NodeCol)
    (W : FVec Ideal Cert.ReferenceIdeal.S128x7 .f32)
    (hA : ∀ i, V c main_v28 i = A i) (hnd : ∀ i, V c main_v15 i = nd i) (hR : ∀ i, V c main_v29 i = R i)
    (hns : ∀ i, V c main_v14 i = ns i) (hW : ∀ i, V c main_v17 i = W i) :
    (dat1 V c).flushed 5 t = ((cfg1.win 5).blk t).view.read (Elt Ideal) (Cert.GraphSpec.lin2 A nd R ns W) := by
  show (cfg1.win 5).cut (grid1.coords t) ((dat1 V c).after 5 t) = _
  rw [after1_5]
  unfold out1_5
  rw [View.canon_unit_zero hz]
  simp only [View.ld_unit_zero (S := S2000x128) hz, View.ld_unit_zero (S := S2000x1) hz, View.ld_unit_zero (S := S1x128) hz,
    View.ld_unit_zero (S := S128x7) hz]
  obtain ⟨e00, e01, e10, e11, e20, e21, e30, e31, e40, e41, e50, e51⟩ := idx_facts t
  have hN : t.val < 25 := lt_of_lt_of_eq t.isLt N_1
  funext j
  obtain ⟨p, q, rfl⟩ : ∃ (p : Fin 2000) (q : Fin 7), j = ix2 p q := ⟨j 0, j 1, eq_ix2 j⟩
  have hP : 2000 * t.val + p.val < 50000 := by have := p.isLt; omega
  rw [View.read_apply]
  have hemb : ((cfg1.win 5).blk t).view.emb (ix2 p q) = ix2 (⟨2000 * t.val + p.val, hP⟩ : Fin 50000) q := by
    funext a; apply Fin.ext
    match a with
    | ⟨0, _⟩ => show win1_5.index t (0 : Fin 2) * 2000 + 1 * p.val = 2000 * t.val + p.val; omega
    | ⟨1, _⟩ => show win1_5.index t (1 : Fin 2) * 7 + 1 * q.val = q.val; omega
  rw [hemb]
  refine pay_entry _ _ _ _ _ A nd R ns W p q ⟨2000 * t.val + p.val, hP⟩ (fun k => ?_) ?_ (fun k => ?_) ?_ (fun k => ?_)
  · show V c main_v28 (((cfg1.win 0).blk t).view.emb (ix2 p k)) = _
    rw [hA]
    refine congrArg A (funext fun a => Fin.ext ?_)
    match a with
    | ⟨0, _⟩ => show win1_0.index t (0 : Fin 2) * 2000 + 1 * p.val = 2000 * t.val + p.val; omega
    | ⟨1, _⟩ => show win1_0.index t (1 : Fin 2) * 128 + 1 * k.val = k.val; omega
  · show V c main_v15 (((cfg1.win 1).blk t).view.emb (ix2 p (0 : Fin 1))) = _
    rw [hnd]
    refine congrArg nd (funext fun a => Fin.ext ?_)
    match a with
    | ⟨0, _⟩ => show win1_1.index t (0 : Fin 2) * 2000 + 1 * p.val = 2000 * t.val + p.val; omega
    | ⟨1, _⟩ => show win1_1.index t (1 : Fin 2) * 1 + 1 * 0 = 0; omega
  · show V c main_v29 (((cfg1.win 2).blk t).view.emb (ix2 (0 : Fin 1) k)) = _
    rw [hR]
    refine congrArg R (funext fun a => Fin.ext ?_)
    match a with
    | ⟨0, _⟩ => show win1_2.index t (0 : Fin 2) * 1 + 1 * 0 = 0; omega
    | ⟨1, _⟩ => show win1_2.index t (1 : Fin 2) * 128 + 1 * k.val = k.val; omega
  · show V c main_v14 (((cfg1.win 3).blk t).view.emb (ix2 p (0 : Fin 1))) = _
    rw [hns]
    refine congrArg ns (funext fun a => Fin.ext ?_)
    match a with
    | ⟨0, _⟩ => show win1_3.index t (0 : Fin 2) * 2000 + 1 * p.val = 2000 * t.val + p.val; omega
    | ⟨1, _⟩ => show win1_3.index t (1 : Fin 2) * 1 + 1 * 0 = 0; omega
  · show V c main_v17 (((cfg1.win 4).blk t).view.emb (ix2 k q)) = _
    rw [hW]
    refine congrArg W (funext fun a => Fin.ext ?_)
    match a with
    | ⟨0, _⟩ => show win1_4.index t (0 : Fin 2) * 128 + 1 * k.val = k.val; omega
    | ⟨1, _⟩ => show win1_4.index t (1 : Fin 2) * 7 + 1 * q.val = q.val; omega

/-- An index of the result is in point t's block iff each coordinate is in the block's range. -/
theorem mem_blk (t : Fin cfg1.N) (i : S50000x7.Idx) :
    i ∈ ((cfg1.win 5).blk t).view.set ↔ ∀ a : Fin 2, win1_5.index t a * S2000x7.size a ≤ (i a).val ∧ (i a).val < win1_5.index t a * S2000x7.size a + S2000x7.size a := by
  show i ∈ ((View.whole main_v30).slice (win1_5.rect t)).set ↔ _
  rw [View.set_slice_whole, Rect.mem_set_unit]
  exact Iff.rfl

/-- Every row lies in the block of the point its two-thousand is. -/
theorem cover (i : S50000x7.Idx) : ∃ t : Fin cfg1.N, (cfg1.win 5).flush t = true ∧ i ∈ ((cfg1.win 5).blk t).view.set := by
  have hi0 : (i 0).val < 50000 := (i 0).isLt
  have hi1 : (i 1).val < 7 := (i 1).isLt
  have ht : (i 0).val / 2000 < cfg1.N := by rw [show cfg1.N = 25 from N_1]; omega
  refine ⟨⟨(i 0).val / 2000, ht⟩, flush1_5 _, ?_⟩
  rw [mem_blk]
  obtain ⟨-, -, -, -, -, -, -, -, -, -, e50, e51⟩ := idx_facts ⟨(i 0).val / 2000, ht⟩
  intro a
  match a with
  | ⟨0, _⟩ => show win1_5.index ⟨(i 0).val / 2000, ht⟩ (0 : Fin 2) * 2000 ≤ (i 0).val ∧ (i 0).val < win1_5.index ⟨(i 0).val / 2000, ht⟩ (0 : Fin 2) * 2000 + 2000; rw [e50]; show (i 0).val / 2000 * 2000 ≤ _ ∧ _ < (i 0).val / 2000 * 2000 + 2000; omega
  | ⟨1, _⟩ => show win1_5.index ⟨(i 0).val / 2000, ht⟩ (1 : Fin 2) * 7 ≤ (i 1).val ∧ (i 1).val < win1_5.index ⟨(i 0).val / 2000, ht⟩ (1 : Fin 2) * 7 + 7; rw [e51]; omega

/-- THE ARRAY the second region leaves: the whole expression (max(A ⊙ nd + R, 0) ⊙ ns) · W of the arrays it found. -/
theorem value (c : Dev nD)
    (A : FVec Ideal Cert.ReferenceIdeal.S50000x128 .f32) (nd : Cert.GraphSpec.NodeCol)
    (R : FVec Ideal Cert.ReferenceIdeal.S1x128 .f32) (ns : Cert.GraphSpec.NodeCol)
    (W : FVec Ideal Cert.ReferenceIdeal.S128x7 .f32)
    (hA : ∀ i, V c main_v28 i = A i) (hnd : ∀ i, V c main_v15 i = nd i) (hR : ∀ i, V c main_v29 i = R i)
    (hns : ∀ i, V c main_v14 i = ns i) (hW : ∀ i, V c main_v17 i = W i) :
    (dat1 V c).arrAt 5 cfg1.N = Cert.GraphSpec.lin2 A nd R ns W :=
  (dat1 V c).arrAt_eq_of_cover 5 (Cert.GraphSpec.lin2 A nd R ns W)
    (fun t _ => flushed_eq V c t A nd R ns W hA hnd hR hns hW) cover

end Cert.KernelIdeal.Layer2

end
-- ==== Proof.Output.lean ====
/-
  The third pallas_call: out = agg2 ⊙ nd + b2, twenty-five blocks of two thousand rows.

  At grid point t the body reads rows 2000·t … 2000·t + 1999 of agg2 and of the column nd, and the bias row, and writes
  a[p, q] · nd[p] + b2[q] into the same rows of the result: entry (2000·t + p, q) of the whole expression.  The blocks
  tile the 50000 rows.  Everything is stated for arbitrary contents V of the buffers at the region's entry.
-/
import proofs.«145729_j24232205484470_2_alg».proof.Proof.Gen.KernelIdeal.Frame
import proofs.«145729_j24232205484470_2_alg».proof.Proof.Spec
import proofs.«145729_j24232205484470_2_alg».proof.Proof.LibScaledRows
import Idealize.ShloMosaic.Lib.Pipeline.Value
import Idealize.ShloMosaic.Lib.ValueIdx
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Output

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The body's arithmetic at entry (p, q) of a block is the whole expression's entry (P, q), when row p of the block's
    operands is row P of the whole ones. -/
theorem pay_entry (x0 : Vec Ideal S2000x7 .f32) (x1 : Vec Ideal S2000x1 .f32) (x2 : Vec Ideal S1x7 .f32)
    (A : FVec Ideal Cert.ReferenceIdeal.S50000x7 .f32) (nd : Cert.GraphSpec.NodeCol)
    (R : FVec Ideal Cert.ReferenceIdeal.S1x7 .f32)
    (p : Fin 2000) (q : Fin 7) (P : Fin 50000)
    (ha : x0 (ix2 p q) = A (ix2 P q)) (hnd : x1 (ix2 p (0 : Fin 1)) = nd (ix2 P (0 : Fin 1)))
    (hr : x2 (ix2 0 q) = R (ix2 0 q)) :
    k2_pay1 (F := Ideal) x0 x1 x2 (ix2 p q) = Cert.GraphSpec.fin A nd R (ix2 P q) :=
  Cert.LibScaledRows.affine_entry x0 x1 x2 A nd R _ _ _ _ _ _ _ p q P ha hnd hr

/-- The printed index maps over the grid: the row-blocked windows sit at block (t, 0), the bias row at block (0, 0). -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- What point t writes back is block t of the whole expression of the arrays as the region finds them. -/
theorem flushed_eq (c : Dev nD) (t : Fin cfg2.N)
    (A : FVec Ideal Cert.ReferenceIdeal.S50000x7 .f32) (nd : Cert.GraphSpec.NodeCol)
    (R : FVec Ideal Cert.ReferenceIdeal.S1x7 .f32)
    (hA : ∀ i, V c main_v40 i = A i) (hnd : ∀ i, V c main_v15 i = nd i) (hR : ∀ i, V c main_v41 i = R i) :
    (dat2 V c).flushed 3 t = ((cfg2.win 3).blk t).view.read (Elt Ideal) (Cert.GraphSpec.fin A nd R) := by
  show (cfg2.win 3).cut (grid2.coords t) ((dat2 V c).after 3 t) = _
  rw [after2_3]
  unfold out2_3
  rw [View.canon_unit_zero hz]
  simp only [View.ld_unit_zero (S := S2000x7) hz, View.ld_unit_zero (S := S2000x1) hz, View.ld_unit_zero (S := S1x7) hz]
  obtain ⟨e00, e01, e10, e11, e20, e21, e30, e31⟩ := idx_facts t
  have hN : t.val < 25 := lt_of_lt_of_eq t.isLt N_2
  funext j
  obtain ⟨p, q, rfl⟩ : ∃ (p : Fin 2000) (q : Fin 7), j = ix2 p q := ⟨j 0, j 1, eq_ix2 j⟩
  have hP : 2000 * t.val + p.val < 50000 := by have := p.isLt; omega
  rw [View.read_apply]
  have hemb : ((cfg2.win 3).blk t).view.emb (ix2 p q) = ix2 (⟨2000 * t.val + p.val, hP⟩ : Fin 50000) q := by
    funext a; apply Fin.ext
    match a with
    | ⟨0, _⟩ => show win2_3.index t (0 : Fin 2) * 2000 + 1 * p.val = 2000 * t.val + p.val; omega
    | ⟨1, _⟩ => show win2_3.index t (1 : Fin 2) * 7 + 1 * q.val = q.val; omega
  rw [hemb]
  refine pay_entry _ _ _ A nd R p q ⟨2000 * t.val + p.val, hP⟩ ?_ ?_ ?_
  · show V c main_v40 (((cfg2.win 0).blk t).view.emb (ix2 p q)) = _
    rw [hA]
    refine congrArg A (funext fun a => Fin.ext ?_)
    match a with
    | ⟨0, _⟩ => show win2_0.index t (0 : Fin 2) * 2000 + 1 * p.val = 2000 * t.val + p.val; omega
    | ⟨1, _⟩ => show win2_0.index t (1 : Fin 2) * 7 + 1 * q.val = q.val; omega
  · show V c main_v15 (((cfg2.win 1).blk t).view.emb (ix2 p (0 : Fin 1))) = _
    rw [hnd]
    refine congrArg nd (funext fun a => Fin.ext ?_)
    match a with
    | ⟨0, _⟩ => show win2_1.index t (0 : Fin 2) * 2000 + 1 * p.val = 2000 * t.val + p.val; omega
    | ⟨1, _⟩ => show win2_1.index t (1 : Fin 2) * 1 + 1 * 0 = 0; omega
  · show V c main_v41 (((cfg2.win 2).blk t).view.emb (ix2 (0 : Fin 1) q)) = _
    rw [hR]
    refine congrArg R (funext fun a => Fin.ext ?_)
    match a with
    | ⟨0, _⟩ => show win2_2.index t (0 : Fin 2) * 1 + 1 * 0 = 0; omega
    | ⟨1, _⟩ => show win2_2.index t (1 : Fin 2) * 7 + 1 * q.val = q.val; omega

/-- An index of the result is in point t's block iff each coordinate is in the block's range. -/
theorem mem_blk (t : Fin cfg2.N) (i : S50000x7.Idx) :
    i ∈ ((cfg2.win 3).blk t).view.set ↔ ∀ a : Fin 2, win2_3.index t a * S2000x7.size a ≤ (i a).val ∧ (i a).val < win2_3.index t a * S2000x7.size a + S2000x7.size a := by
  show i ∈ ((View.whole main_v42).slice (win2_3.rect t)).set ↔ _
  rw [View.set_slice_whole, Rect.mem_set_unit]
  exact Iff.rfl

/-- Every row lies in the block of the point its two-thousand is. -/
theorem cover (i : S50000x7.Idx) : ∃ t : Fin cfg2.N, (cfg2.win 3).flush t = true ∧ i ∈ ((cfg2.win 3).blk t).view.set := by
  have hi0 : (i 0).val < 50000 := (i 0).isLt
  have hi1 : (i 1).val < 7 := (i 1).isLt
  have ht : (i 0).val / 2000 < cfg2.N := by rw [show cfg2.N = 25 from N_2]; omega
  refine ⟨⟨(i 0).val / 2000, ht⟩, flush2_3 _, ?_⟩
  rw [mem_blk]
  obtain ⟨-, -, -, -, -, -, e30, e31⟩ := idx_facts ⟨(i 0).val / 2000, ht⟩
  intro a
  match a with
  | ⟨0, _⟩ => show win2_3.index ⟨(i 0).val / 2000, ht⟩ (0 : Fin 2) * 2000 ≤ (i 0).val ∧ (i 0).val < win2_3.index ⟨(i 0).val / 2000, ht⟩ (0 : Fin 2) * 2000 + 2000; rw [e30]; show (i 0).val / 2000 * 2000 ≤ _ ∧ _ < (i 0).val / 2000 * 2000 + 2000; omega
  | ⟨1, _⟩ => show win2_3.index ⟨(i 0).val / 2000, ht⟩ (1 : Fin 2) * 7 ≤ (i 1).val ∧ (i 1).val < win2_3.index ⟨(i 0).val / 2000, ht⟩ (1 : Fin 2) * 7 + 7; rw [e31]; omega

/-- THE ARRAY the third region leaves: the whole expression A ⊙ nd + R of the arrays it found. -/
theorem value (c : Dev nD)
    (A : FVec Ideal Cert.ReferenceIdeal.S50000x7 .f32) (nd : Cert.GraphSpec.NodeCol)
    (R : FVec Ideal Cert.ReferenceIdeal.S1x7 .f32)
    (hA : ∀ i, V c main_v40 i = A i) (hnd : ∀ i, V c main_v15 i = nd i) (hR : ∀ i, V c main_v41 i = R i) :
    (dat2 V c).arrAt 3 cfg2.N = Cert.GraphSpec.fin A nd R :=
  (dat2 V c).arrAt_eq_of_cover 3 (Cert.GraphSpec.fin A nd R) (fun t _ => flushed_eq V c t A nd R hA hnd hR) cover

end Cert.KernelIdeal.Output

end
-- ==== Proof.KernelValue.lean ====
/-
  The kernel's program as a whole: what its result buffer holds after the run, as a function of the seven arguments.

  The run passes through six boundaries: host operations, region, host operations, region, host operations, region.
  At each boundary the buffers that matter are followed: the arguments (never written), the two degree columns and the
  narrowed weights (computed once, before the first region, and only read afterwards), and each stage's result, which is
  the reference's stage of the previous results (the dense stages because the regions' blocks tile the rows, the
  aggregations because they are the same host operations).  The last region's result is the whole composition.
-/
import proofs.«145729_j24232205484470_2_alg».proof.Proof.Gen.KernelIdeal.Frame
import proofs.«145729_j24232205484470_2_alg».proof.Proof.Spec
import proofs.«145729_j24232205484470_2_alg».proof.Proof.Stretches
import proofs.«145729_j24232205484470_2_alg».proof.Proof.Layer1
import proofs.«145729_j24232205484470_2_alg».proof.Proof.Layer2
import proofs.«145729_j24232205484470_2_alg».proof.Proof.Output

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.GraphSpec

local notation "𝕄" => MT nD τ sig Unit (Elt Ideal) ℕ (UR sig nD τ) ℕ

variable (m : (ℓ : Loc nD τ sig) → Buf (Elt Ideal) ℓ) (ρ : Dev nD → PrngReg)

/-! ## The run, with the result buffer's final contents named -/

set_option backward.isDefEq.respectTransparency.types false in
/-- Every weakly fair execution terminates, nothing faulting, with the result buffer at the contents the last boundary
    gives it and the arguments as launched. -/
theorem run_named : θ_run defs (onTc (τ := τ) (main (F := Ideal))) ⟨m, fun _ => 0, ρ⟩ (fun r => ∀ c : Dev nD,
      r.2.mem ((c.tc : Thread nD τ).loc main_v42) = W6 m ρ c (Proc.devRef .tc main_v42)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v42 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c)⟩)

/-! ## The arguments -/

variable (c : Dev nD)

abbrev aX : FVec Ideal Cert.ReferenceIdeal.S50000x1433 .f32 := m ((c.tc : Thread nD τ).loc main_arg0)
abbrev aSrc : EdgeIdx := m ((c.tc : Thread nD τ).loc main_arg1)
abbrev aDst : EdgeIdx := m ((c.tc : Thread nD τ).loc main_arg2)
abbrev aW1 : FVec Ideal Cert.ReferenceIdeal.S1433x128 .f32 := m ((c.tc : Thread nD τ).loc main_arg3)
abbrev aB1 : FVec Ideal Cert.ReferenceIdeal.S128 .f32 := m ((c.tc : Thread nD τ).loc main_arg4)
abbrev aW2 : FVec Ideal Cert.ReferenceIdeal.S128x7 .f32 := m ((c.tc : Thread nD τ).loc main_arg5)
abbrev aB2 : FVec Ideal Cert.ReferenceIdeal.S7 .f32 := m ((c.tc : Thread nD τ).loc main_arg6)

/-- The two degree columns. -/
abbrev ns : NodeCol := col (degNorm (aSrc m c))
abbrev nd : NodeCol := col (degNorm (aDst m c))
/-- The stages' results. -/
abbrev h1 : FVec Ideal Cert.ReferenceIdeal.S50000x128 .f32 := lin1 (aX m c) (ns m c) (aW1 m c)
abbrev a1 : FVec Ideal Cert.ReferenceIdeal.S50000x128 .f32 := agg128 (h1 m c) (aSrc m c) (aDst m c)
abbrev h2 : FVec Ideal Cert.ReferenceIdeal.S50000x7 .f32 := lin2 (a1 m c) (nd m c) (row128 (aB1 m c)) (ns m c) (aW2 m c)
abbrev a2 : FVec Ideal Cert.ReferenceIdeal.S50000x7 .f32 := agg7 (h2 m c) (aSrc m c) (aDst m c)

/-! ## Entering the first region (after the first host operations) -/

theorem e1_X : W1 m ρ c (Proc.devRef .tc main_arg0) = aX m c := Cert.KernelIdeal.Stretch.s0_keep_arg0 (W0 m ρ c)
theorem e1_src : W1 m ρ c (Proc.devRef .tc main_arg1) = aSrc m c := Cert.KernelIdeal.Stretch.s0_keep_arg1 (W0 m ρ c)
theorem e1_dst : W1 m ρ c (Proc.devRef .tc main_arg2) = aDst m c := Cert.KernelIdeal.Stretch.s0_keep_arg2 (W0 m ρ c)
theorem e1_b1 : W1 m ρ c (Proc.devRef .tc main_arg4) = aB1 m c := Cert.KernelIdeal.Stretch.s0_keep_arg4 (W0 m ρ c)
theorem e1_b2 : W1 m ρ c (Proc.devRef .tc main_arg6) = aB2 m c := Cert.KernelIdeal.Stretch.s0_keep_arg6 (W0 m ρ c)
theorem e1_ns : W1 m ρ c (Proc.devRef .tc main_v14) = ns m c := Cert.KernelIdeal.Stretch.s0_v14 (W0 m ρ c)
theorem e1_nd : W1 m ρ c (Proc.devRef .tc main_v15) = nd m c := Cert.KernelIdeal.Stretch.s0_v15 (W0 m ρ c)
theorem e1_W1 (i : S1433x128.Idx) : W1 m ρ c (Proc.devRef .tc main_v16) i = aW1 m c i := Cert.KernelIdeal.Stretch.s0_v16 (W0 m ρ c) i
theorem e1_W2 (i : S128x7.Idx) : W1 m ρ c (Proc.devRef .tc main_v17) i = aW2 m c i := Cert.KernelIdeal.Stretch.s0_v17 (W0 m ρ c) i

/-! ## Leaving the first region -/

/-- The first region's result is the first layer's dense stage. -/
theorem e2_h1 : W2 m ρ c (Proc.devRef .tc main_v18) = h1 m c :=
  (W2_arr m ρ c 3).trans (Cert.KernelIdeal.Layer1.value (V1 m ρ) c (aX m c) (ns m c) (aW1 m c)
    (fun i => congrFun (e1_X m ρ c) i) (fun i => congrFun (e1_ns m ρ c) i) (e1_W1 m ρ c))
theorem e2_ns : W2 m ρ c (Proc.devRef .tc main_v14) = ns m c :=
  ((W2_arr m ρ c 1).trans (((dat0 (V1 m ρ) c).arrAt_in 1 rfl _).trans (A_eq0 (V1 m ρ) c 1))).trans (e1_ns m ρ c)
theorem e2_nd : W2 m ρ c (Proc.devRef .tc main_v15) = nd m c := (W2_of_ne m ρ c main_v15 (by decide)).trans (e1_nd m ρ c)
theorem e2_W2 (i : S128x7.Idx) : W2 m ρ c (Proc.devRef .tc main_v17) i = aW2 m c i :=
  (congrFun (W2_of_ne m ρ c main_v17 (by decide)) i).trans (e1_W2 m ρ c i)
theorem e2_src : W2 m ρ c (Proc.devRef .tc main_arg1) = aSrc m c := (W2_of_ne m ρ c main_arg1 (by decide)).trans (e1_src m ρ c)
theorem e2_dst : W2 m ρ c (Proc.devRef .tc main_arg2) = aDst m c := (W2_of_ne m ρ c main_arg2 (by decide)).trans (e1_dst m ρ c)
theorem e2_b1 : W2 m ρ c (Proc.devRef .tc main_arg4) = aB1 m c := (W2_of_ne m ρ c main_arg4 (by decide)).trans (e1_b1 m ρ c)
theorem e2_b2 : W2 m ρ c (Proc.devRef .tc main_arg6) = aB2 m c := (W2_of_ne m ρ c main_arg6 (by decide)).trans (e1_b2 m ρ c)

/-! ## Entering the second region -/

theorem e3_a1 : W3 m ρ c (Proc.devRef .tc main_v28) = a1 m c := by
  refine (Cert.KernelIdeal.Stretch.s1_v28 (W2 m ρ c)).trans ?_
  rw [e2_h1 m ρ c, e2_src m ρ c, e2_dst m ρ c]
theorem e3_r1 : W3 m ρ c (Proc.devRef .tc main_v29) = row128 (aB1 m c) :=
  (Cert.KernelIdeal.Stretch.s1_v29 (W2 m ρ c)).trans (congrArg row128 (e2_b1 m ρ c))
theorem e3_ns : W3 m ρ c (Proc.devRef .tc main_v14) = ns m c := (Cert.KernelIdeal.Stretch.s1_keep_v14 (W2 m ρ c)).trans (e2_ns m ρ c)
theorem e3_nd : W3 m ρ c (Proc.devRef .tc main_v15) = nd m c := (Cert.KernelIdeal.Stretch.s1_keep_v15 (W2 m ρ c)).trans (e2_nd m ρ c)
theorem e3_W2 (i : S128x7.Idx) : W3 m ρ c (Proc.devRef .tc main_v17) i = aW2 m c i :=
  (congrFun (Cert.KernelIdeal.Stretch.s1_keep_v17 (W2 m ρ c)) i).trans (e2_W2 m ρ c i)
theorem e3_src : W3 m ρ c (Proc.devRef .tc main_arg1) = aSrc m c := (Cert.KernelIdeal.Stretch.s1_keep_arg1 (W2 m ρ c)).trans (e2_src m ρ c)
theorem e3_dst : W3 m ρ c (Proc.devRef .tc main_arg2) = aDst m c := (Cert.KernelIdeal.Stretch.s1_keep_arg2 (W2 m ρ c)).trans (e2_dst m ρ c)
theorem e3_b2 : W3 m ρ c (Proc.devRef .tc main_arg6) = aB2 m c := (Cert.KernelIdeal.Stretch.s1_keep_arg6 (W2 m ρ c)).trans (e2_b2 m ρ c)

/-! ## Leaving the second region -/

/-- The second region's result is the second layer's dense stage of the rectified first layer. -/
theorem e4_h2 : W4 m ρ c (Proc.devRef .tc main_v30) = h2 m c :=
  (W4_arr m ρ c 5).trans (Cert.KernelIdeal.Layer2.value (V3 m ρ) c (a1 m c) (nd m c) (row128 (aB1 m c)) (ns m c) (aW2 m c)
    (fun i => congrFun (e3_a1 m ρ c) i) (fun i => congrFun (e3_nd m ρ c) i) (fun i => congrFun (e3_r1 m ρ c) i)
    (fun i => congrFun (e3_ns m ρ c) i) (e3_W2 m ρ c))
theorem e4_nd : W4 m ρ c (Proc.devRef .tc main_v15) = nd m c :=
  ((W4_arr m ρ c 1).trans (((dat1 (V3 m ρ) c).arrAt_in 1 rfl _).trans (A_eq1 (V3 m ρ) c 1))).trans (e3_nd m ρ c)
theorem e4_src : W4 m ρ c (Proc.devRef .tc main_arg1) = aSrc m c := (W4_of_ne m ρ c main_arg1 (by decide)).trans (e3_src m ρ c)
theorem e4_dst : W4 m ρ c (Proc.devRef .tc main_arg2) = aDst m c := (W4_of_ne m ρ c main_arg2 (by decide)).trans (e3_dst m ρ c)
theorem e4_b2 : W4 m ρ c (Proc.devRef .tc main_arg6) = aB2 m c := (W4_of_ne m ρ c main_arg6 (by decide)).trans (e3_b2 m ρ c)

/-! ## Entering the third region -/

theorem e5_a2 : W5 m ρ c (Proc.devRef .tc main_v40) = a2 m c := by
  refine (Cert.KernelIdeal.Stretch.s2_v40 (W4 m ρ c)).trans ?_
  rw [e4_h2 m ρ c, e4_src m ρ c, e4_dst m ρ c]
theorem e5_r2 : W5 m ρ c (Proc.devRef .tc main_v41) = row7 (aB2 m c) :=
  (Cert.KernelIdeal.Stretch.s2_v41 (W4 m ρ c)).trans (congrArg row7 (e4_b2 m ρ c))
theorem e5_nd : W5 m ρ c (Proc.devRef .tc main_v15) = nd m c := (Cert.KernelIdeal.Stretch.s2_keep_v15 (W4 m ρ c)).trans (e4_nd m ρ c)

/-! ## The result -/

/-- The third region's result is the whole two-layer graph convolution of the arguments. -/
theorem result_eq : W6 m ρ c (Proc.devRef .tc main_v42)
    = result (aX m c) (aSrc m c) (aDst m c) (aW1 m c) (aB1 m c) (aW2 m c) (aB2 m c) :=
  (W6_arr m ρ c 3).trans (Cert.KernelIdeal.Output.value (V5 m ρ) c (a2 m c) (nd m c) (row7 (aB2 m c))
    (fun i => congrFun (e5_a2 m ρ c) i) (fun i => congrFun (e5_nd m ρ c) i) (fun i => congrFun (e5_r2 m ρ c) i))

/-- THE RUN, READ: the result buffer ends at the composition of the arguments, the arguments as launched. -/
theorem run : θ_run defs (onTc (τ := τ) (main (F := Ideal))) ⟨m, fun _ => 0, ρ⟩ (fun r => ∀ c : Dev nD,
      r.2.mem ((c.tc : Thread nD τ).loc main_v42) = result (aX m c) (aSrc m c) (aDst m c) (aW1 m c) (aB1 m c) (aW2 m c) (aB2 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c).1.trans (result_eq m ρ c), (h c).2⟩) (run_named m ρ)

end Cert.KernelIdeal.Whole

end
-- ==== Proof.lean ====
/-
  A two-layer graph convolution (50000 nodes, 1600000 edges): the kernel's program against its reference, on the
  extended reals.

  With ns = rsqrt(max(outdeg, 1)) and nd = rsqrt(max(indeg, 1)), both programs compute
      out = S(((max(S(((X ⊙ ns) · W1)[src], dst) ⊙ nd + b1, 0) ⊙ ns) · W2)[src], dst) ⊙ nd + b2,
  where S(·[src], dst) gathers the rows of the edges' sources and adds them into the rows of the edges' destinations.
  The reference computes every stage by host operations on whole matrices.  The kernel's program computes the degree
  columns and the two aggregations by the same host operations, and the three dense stages — (X ⊙ ns) · W1,
  (max(a ⊙ nd + b1, 0) ⊙ ns) · W2 and a ⊙ nd + b2 — by three pallas_calls, each over blocks of consecutive rows (fifty
  blocks of a thousand rows, then twice twenty-five blocks of two thousand).  A dense stage's entry (P, q) depends only on
  row P of its row operands, so a block's entry (p, q) is the whole stage's entry at the block's row: the same sum over
  k of the same products, with no law of arithmetic beyond reading the layout operations, hence no finiteness of the
  inputs is needed.  The blocks tile the rows, so each region leaves the whole stage in its result array; the narrower
  float format of the matrix products' operands is the identity on the extended reals.  Composing the six segments of
  the kernel's run gives the reference's composition of the arguments (Proof/KernelValue.lean); the reference's run gives
  the same composition by unfolding (Proof/Spec.lean).  The idealisation rewrote nothing, so it is trivially
  sanctioned; the three frames are the generated ones, the reference's being its generated run with the result dropped.
-/
import proofs.«145729_j24232205484470_2_alg».proof.Defs
import proofs.«145729_j24232205484470_2_alg».proof.Proof.Gen.Kernel
import proofs.«145729_j24232205484470_2_alg».proof.Proof.Gen.Kernel.Frame
import proofs.«145729_j24232205484470_2_alg».proof.Proof.Gen.KernelIdeal
import proofs.«145729_j24232205484470_2_alg».proof.Proof.Gen.KernelIdeal.Frame
import proofs.«145729_j24232205484470_2_alg».proof.Proof.Gen.ReferenceIdeal
import proofs.«145729_j24232205484470_2_alg».proof.Proof.Gen.Pre_finite_inputs
import proofs.«145729_j24232205484470_2_alg».proof.Proof.Gen.ReferenceIdeal.Run
import proofs.«145729_j24232205484470_2_alg».proof.Proof.Gen.ReferenceIdeal.Read
import proofs.«145729_j24232205484470_2_alg».proof.Proof.Spec
import proofs.«145729_j24232205484470_2_alg».proof.Proof.KernelValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealisation rewrote no operation. -/
theorem preserves : Cert.preserves_Kernel_KernelIdeal := trivial

/-- Both runs end with the result at the two-layer graph convolution of their arguments, and the arguments agree. -/
theorem algebraic : Cert.algebraic_KernelIdeal_ReferenceIdeal := by
  intro m ρ m' ρ' _ hagree
  refine ⟨fun c => Cert.GraphSpec.result (Cert.KernelIdeal.Whole.aX m c) (Cert.KernelIdeal.Whole.aSrc m c)
      (Cert.KernelIdeal.Whole.aDst m c) (Cert.KernelIdeal.Whole.aW1 m c) (Cert.KernelIdeal.Whole.aB1 m c)
      (Cert.KernelIdeal.Whole.aW2 m c) (Cert.KernelIdeal.Whole.aB2 m c), Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6⟩ := hagree c
  rw [Cert.GraphSpec.ref_eq, h0, h1, h2, h3, h4, h5, h6]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
